-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x3x8192 : Shape := ⟨3, ![4, 3, 8192]⟩
abbrev S4x8192 : Shape := ⟨2, ![4, 8192]⟩
abbrev S4x512x3 : Shape := ⟨3, ![4, 512, 3]⟩
abbrev S4x3x1024 : Shape := ⟨3, ![4, 3, 1024]⟩
abbrev S4x512 : Shape := ⟨2, ![4, 512]⟩
abbrev S4x512x1024 : Shape := ⟨3, ![4, 512, 1024]⟩
abbrev S4x1024 : Shape := ⟨2, ![4, 1024]⟩
abbrev S4x512x1 : Shape := ⟨3, ![4, 512, 1]⟩
abbrev S4x1x1024 : Shape := ⟨3, ![4, 1, 1024]⟩
abbrev S_ : Shape := ⟨0, ![]⟩

abbrev nBuf : Space → Nat
  | .hbm => 15
  | .vmem => 14
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x3x8192, .f32⟩
  | .hbm, ⟨3, _⟩ => ⟨S4x8192, .f32⟩
  | .hbm, ⟨4, _⟩ => ⟨S4x3x8192, .f32⟩
  | .hbm, ⟨5, _⟩ => ⟨S4x8192, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S4x512x3, .f32⟩
  | .local _ .vmem, ⟨1, _⟩ => ⟨S4x512x3, .f32⟩
  | .local _ .vmem, ⟨2, _⟩ => ⟨S4x3x1024, .f32⟩
  | .local _ .vmem, ⟨3, _⟩ => ⟨S4x3x1024, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | .local _ .vmem, ⟨7, _⟩ => ⟨S4x512x3, .f32⟩
  | .local _ .vmem, ⟨8, _⟩ => ⟨S4x512x3, .f32⟩
  | .local _ .vmem, ⟨9, _⟩ => ⟨S4x3x1024, .f32⟩
  | .local _ .vmem, ⟨10, _⟩ => ⟨S4x3x1024, .f32⟩
  | .local _ .vmem, ⟨11, _⟩ => ⟨S4x512, .f32⟩
  | .local _ .vmem, ⟨12, _⟩ => ⟨S4x512, .f32⟩
  | .local _ .vmem, ⟨13, _⟩ => ⟨S4x512, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v25 : BitVec 1 := Scalar.cmpi .eq arg1 c7_i32
  let v26 : BitVec 32 := Scalar.extui v25
  let c0_i32_14 : BitVec 32 := 0#32
  let v27 : BitVec 1 := Scalar.cmpi .ne v26 c0_i32_14
  v27

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v25 : BitVec 1 := Scalar.cmpi .eq arg1 c7_i32
  let v26 : BitVec 32 := Scalar.extui v25
  let c0_i32_14 : BitVec 32 := 0#32
  let v27 : BitVec 1 := Scalar.cmpi .ne v26 c0_i32_14
  v27

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S4x512x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4x3x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  transposes_S4x8192x3_S4x3x8192_0_2_1 : S4x8192x3.Transposes [0, 2, 1] S4x3x8192
  inb_S4x512_S4x512_0_0 : ∀ a, (![0, 0] : Fin 2 → Nat) a + S4x512.size a ≤ S4x512.size a
  h_S4x512 : 0 < S4x512.numel
  shapeCasts_S4x512_S4x512 : S4x512.ShapeCasts S4x512
  inb_S4x512x3_S4x512x3_0_0_0 : ∀ a, (![0, 0, 0] : Fin 3 → Nat) a + S4x512x3.size a ≤ S4x512x3.size a
  h_S4x512x3 : 0 < S4x512x3.numel
  inb_S4x3x1024_S4x3x1024_0_0_0 : ∀ a, (![0, 0, 0] : Fin 3 → Nat) a + S4x3x1024.size a ≤ S4x3x1024.size a
  h_S4x3x1024 : 0 < S4x3x1024.numel
  shapeCasts_S4x3x1024_S4x3x1024 : S4x3x1024.ShapeCasts S4x3x1024
  reduces_S4x512x3_S4x512 : S4x512x3.Reduces [2] S4x512
  reduces_S4x3x1024_S4x1024 : S4x3x1024.Reduces [1] S4x1024
  shapeCasts_S4x512_S4x512x1 : S4x512.ShapeCasts S4x512x1
  shapeCasts_S4x1024_S4x1x1024 : S4x1024.ShapeCasts S4x1x1024
  broadcasts_S4x512x1_S4x512x1024 : S4x512x1.Broadcasts S4x512x1024
  broadcasts_S4x1x1024_S4x512x1024 : S4x1x1024.Broadcasts S4x512x1024
  reduces_S4x512x1024_S4x512 : S4x512x1024.Reduces [2] S4x512
  reducesTo_S4x8192_S_d0_1 : S4x8192.ReducesTo [0, 1] S_
  h_S_ : 0 < S_.numel
  dot_S4x512x3_S4x3x1024_S4x512x1024_2_1_1_2_0_0_wf : DotDims.WF S4x512x3 S4x3x1024 S4x512x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x3.size a ≤ S4x8192x3.size a
  hwx0_0 : ∀ i : grid0.Coords, EltTy.bits .f32 = 32 ∨ (Rect.block (s := S4x8192x3) S4x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x3x1024.size a ≤ S4x3x8192.size a
  hwx0_1 : ∀ i : grid0.Coords, EltTy.bits .f32 = 32 ∨ (Rect.block (s := S4x3x8192) S4x3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512.size a ≤ S4x8192.size a
  hwx0_2 : ∀ i : grid0.Coords, EltTy.bits .f32 = 32 ∨ (Rect.block (s := S4x8192) S4x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x512x3.size a ≤ S4x8192x3.size a
  hwx1_0 : ∀ i : grid1.Coords, EltTy.bits .f32 = 32 ∨ (Rect.block (s := S4x8192x3) S4x512x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x3x1024.size a ≤ S4x3x8192.size a
  hwx1_1 : ∀ i : grid1.Coords, EltTy.bits .f32 = 32 ∨ (Rect.block (s := S4x3x8192) S4x3x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x512.size a ≤ S4x8192.size a
  hwx1_2 : ∀ i : grid1.Coords, EltTy.bits .f32 = 32 ∨ (Rect.block (s := S4x8192) S4x512.size (cc1_transform_2 i) (hinb1_2 i)).WholeWords (EltTy.packing .f32)

variable [Facts₀]

def dot_S4x512x3_S4x3x1024_S4x512x1024_2_1_1_2_0_0 : DotDims S4x512x3 S4x3x1024 S4x512x1024 where
  lhsContracting := [2]
  rhsContracting := [1]
  lhsNonContracting := [1]
  rhsNonContracting := [2]
  lhsBatch := [0]
  rhsBatch := [0]
  wf := dot_S4x512x3_S4x3x1024_S4x512x1024_2_1_1_2_0_0_wf

abbrev win0_0 : Pipeline.Window sig grid0 :=
  Pipeline.Window.ofSpec (Memref.whole main_arg0) S4x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S4x512x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S4x3x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S4x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 31
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192, .f32⟩
  | .hbm, ⟨20, _⟩ => ⟨S_, .f32⟩
  | .hbm, ⟨21, _⟩ => ⟨S4x8192, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S_d0_1 : S4x8192.ReducesTo [0, 1] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.BitsFrShared.lean ====
import proofs.«140404_j28063316312805_1_alg».proof.Proof.Gen.Kernel.Launch
import proofs.«140404_j28063316312805_1_alg».proof.Proof.Gen.Kernel.Skeleton
import proofs.«140404_j28063316312805_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Call 0: the blocks its windows stage, the branch conditions over the grid, the idle points -/

section Call0
variable (V : (c : Dev nD) → (b : Ref sig .tc) → Buf (Elt F) ((c : Thread nD τ).loc b))

/-- Window `w`'s block at grid point `t`: the rectangle of the window's array (as the call finds it, `V`) that the
    index map selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetched it or the
    index had not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Call0

/-- The first branch of the body (reset the running minimum) is taken where the second grid coordinate is 0, -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- and the last (copy the running minimum out) where it is 7: the points ≡ 0 and ≡ 7 (mod 8) in row-major order. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-- The two input windows are never idle; the output window is idle, and not written back, exactly where the last
    branch is not taken. -/
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-- The staging memrefs the pipeline passes the body at point `t`, and the scratch that carries the running minimum. -/
abbrev ms0_0 (t : Fin cfg0.N) : Memref sig .tc .vmem S4x512x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x3x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x512 .f32 := win0_2.stage (cfg0.slots t 2)
abbrev hs0_2 (t : Fin cfg0.N) : (ms0_2 t).IsWhole := hstage0_2 ((cfg0.slots t 2).cast nbuf0_2)
abbrev scM0 : Memref sig .tc .vmem S4x512 .f32 := Memref.whole cc0_scratch0

/-- The other scoped buffers of the core (the other call's staging buffers and scratch), each whole at some contents:
    what call 0's body never touches. -/
def restS0 (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-! # Call 1: the blocks its windows stage, the branch conditions over the grid, the idle points -/

section Call1
variable (V : (c : Dev nD) → (b : Ref sig .tc) → Buf (Elt F) ((c : Thread nD τ).loc b))

/-- Window `w`'s block at grid point `t`: the rectangle of the window's array (as the call finds it, `V`) that the
    index map selects there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetched it or the
    index had not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Call1

/-- The first branch of the body (reset the running minimum) is taken where the second grid coordinate is 0, -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- and the last (copy the running minimum out) where it is 7: the points ≡ 0 and ≡ 7 (mod 8) in row-major order. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-- The two input windows are never idle; the output window is idle, and not written back, exactly where the last
    branch is not taken. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-- The staging memrefs the pipeline passes the body at point `t`, and the scratch that carries the running minimum. -/
abbrev ms1_0 (t : Fin cfg1.N) : Memref sig .tc .vmem S4x512x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4x3x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x512 .f32 := win1_2.stage (cfg1.slots t 2)
abbrev hs1_2 (t : Fin cfg1.N) : (ms1_2 t).IsWhole := hstage1_2 ((cfg1.slots t 2).cast nbuf1_2)
abbrev scM1 : Memref sig .tc .vmem S4x512 .f32 := Memref.whole cc1_scratch0

/-- The other scoped buffers of the core (the other call's staging buffers and scratch), each whole at some contents:
    what call 1's body never touches. -/
def restS1 (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-! ## Whole-buffer stores and loads read back -/

section Whole
variable {Val : EltTy → Type} [∀ e, Nonempty (Val e)] {sig' : RefSig} {κ : Kind} {sp : Space} {S : Shape} {e : EltTy}

/-- After a store through the whole-buffer rectangle, LAST, the buffer reads as that store's payload, whatever
    was stored before. -/
theorem read_writes_whole_cons (v : View sig' κ sp S e) (f : v.ty.Contents Val) {off : Fin S.rank → Nat} (hz : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, by
    subst hz; show y ∈ (Rect.whole S).set; rw [Rect.set_whole]; exact Finset.mem_univ y⟩), View.canon_cons_unit_zero hz]

/-- A whole-buffer load of a whole buffer's contents is the contents. -/
theorem readAt_whole {m : Memref sig' κ sp S e} (h : m.IsWhole) {off : Fin S.rank → Nat} (hz : off = fun _ => 0)
    (inb : ∀ a, off a + S.size a ≤ S.size a) (X : S.Idx → Val e) :
    m.view.readAt Val (Rect.unit off S.size inb).toLoadRect (h.unread X) = X := by
  subst hz
  show View.ld (m.view.read Val (h.unread X)) (Rect.unit (fun _ => 0) S.size inb) = X
  rw [h.read_unread, View.ld_unit_zero rfl]

/-- A whole-buffer load after stores the last of which was a whole-buffer store reads that store's payload. -/
theorem readCov_whole_cons (v : View sig' κ sp S e) {off : Fin S.rank → Nat} (hz : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst hz
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

end Whole

theorem hz_S4x512 : (![0, 0] : Fin S4x512.rank → Nat) = fun _ => 0 := by funext a; fin_cases a <;> rfl
theorem hz_S4x512x3 : (![0, 0, 0] : Fin S4x512x3.rank → Nat) = fun _ => 0 := by funext a; fin_cases a <;> rfl
theorem hz_S4x3x1024 : (![0, 0, 0] : Fin S4x3x1024.rank → Nat) = fun _ => 0 := by funext a; fin_cases a <;> rfl

end Cert.Kernel.Fr

end
-- ==== Proof.BitsFrRun0.lean ====
import proofs.«140404_j28063316312805_1_alg».proof.Proof.BitsFrShared

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Call 0's body, case by case

The body keeps a running minimum in its scratch: at a point whose second coordinate is 0 it first resets the scratch to
`+∞`; at every point it replaces the scratch by the new minimum (`k0_pay2` of the two staged blocks and the scratch);
at a point whose second coordinate is 7 it copies the scratch into the output block. Every load and store is of a whole
buffer, so each buffer ends at a named value. -/

set_option maxHeartbeats 1000000 in
/-- First tile of a row block: the scratch (at anything) ends at the minimum over the tile alone. -/
theorem run0_A (c : Dev nD) (i : grid0.Coords) (arg2 : Memref sig .tc .vmem S4x512x3 .f32) (harg2 : arg2.IsWhole) (arg3 : Memref sig .tc .vmem S4x3x1024 .f32) (harg3 : arg3.IsWhole) (arg4 : Memref sig .tc .vmem S4x512 .f32) (harg4 : arg4.IsWhole) (arg5 : Memref sig .tc .vmem S4x512 .f32) (harg5 : arg5.IsWhole) (hc0 : cond0_0 i) (hc1 : ¬cond0_1 i)
    (x0 : Vec F S4x512x3 .f32) (x1 : Vec F S4x3x1024 .f32) (E : Set ℕ) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1 ∗ owns (c : Thread nD τ) arg5 fullShare (k0_pay2 x0 x1 (k0_pay1 (F := F)))) -∗ K ⟨⟩))
      ⊢ wp frame (wpE (defs₀ (F := F)) Variants.none c none) E (cc0__row_min_sqdist_kernel i arg2 harg2 arg3 harg3 arg4 harg4 arg5 harg5) K := by
  simp only [cc0__row_min_sqdist_kernel_eq_skeleton]; unfold cc0__row_min_sqdist_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_run_names
  rw [read_writes_whole_cons _ _ hz_S4x512]
  simp only [readAt_whole harg2 hz_S4x512x3, readAt_whole harg3 hz_S4x3x1024, readCov_whole_cons (S := S4x512) arg5.view hz_S4x512]

set_option maxHeartbeats 1000000 in
/-- A middle tile: the scratch, at `xs`, ends at the minimum of `xs` and the tile's. -/
theorem run0_B (c : Dev nD) (i : grid0.Coords) (arg2 : Memref sig .tc .vmem S4x512x3 .f32) (harg2 : arg2.IsWhole) (arg3 : Memref sig .tc .vmem S4x3x1024 .f32) (harg3 : arg3.IsWhole) (arg4 : Memref sig .tc .vmem S4x512 .f32) (harg4 : arg4.IsWhole) (arg5 : Memref sig .tc .vmem S4x512 .f32) (harg5 : arg5.IsWhole) (hc0 : ¬cond0_0 i) (hc1 : ¬cond0_1 i)
    (x0 : Vec F S4x512x3 .f32) (x1 : Vec F S4x3x1024 .f32) (xs : Vec F S4x512 .f32) (E : Set ℕ) (K : PUnit → sProp 𝕄) :
    iprop(owns (c : Thread nD τ) arg2 fullShare x0 ∗ owns (c : Thread nD τ) arg3 fullShare x1 ∗ owns (c : Thread nD τ) arg5 fullShare xs
        ∗ (iprop(owns (c : Thread nD τ) arg2 fullShare x0 ∗ owns (c : Thread nD τ) arg3 fullShare x1 ∗ owns (c : Thread nD τ) arg5 fullShare (k0_pay2 x0 x1 xs)) -∗ K ⟨⟩))
      ⊢ wp frame (wpE (defs₀ (F := F)) Variants.none c none) E (cc0__row_min_sqdist_kernel i arg2 harg2 arg3 harg3 arg4 harg4 arg5 harg5) K := by
  simp only [cc0__row_min_sqdist_kernel_eq_skeleton]; unfold cc0__row_min_sqdist_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_run_names
  rw [read_writes_whole_cons _ _ hz_S4x512]
  simp only [readAt_whole harg2 hz_S4x512x3, readAt_whole harg3 hz_S4x3x1024, readAt_whole harg5 hz_S4x512]

set_option maxHeartbeats 1000000 in
/-- The last tile: as a middle tile, and the output block (at anything) ends at the scratch's new value. -/
theorem run0_C (c : Dev nD) (i : grid0.Coords) (arg2 : Memref sig .tc .vmem S4x512x3 .f32) (harg2 : arg2.IsWhole) (arg3 : Memref sig .tc .vmem S4x3x1024 .f32) (harg3 : arg3.IsWhole) (arg4 : Memref sig .tc .vmem S4x512 .f32) (harg4 : arg4.IsWhole) (arg5 : Memref sig .tc .vmem S4x512 .f32) (harg5 : arg5.IsWhole) (hc0 : ¬cond0_0 i) (hc1 : cond0_1 i)
    (x0 : Vec F S4x512x3 .f32) (x1 : Vec F S4x3x1024 .f32) (xs : Vec F S4x512 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k0_pay2 x0 x1 xs) ∗ owns (c : Thread nD τ) arg5 fullShare (k0_pay2 x0 x1 xs)) -∗ K ⟨⟩))
      ⊢ wp frame (wpE (defs₀ (F := F)) Variants.none c none) E (cc0__row_min_sqdist_kernel i arg2 harg2 arg3 harg3 arg4 harg4 arg5 harg5) K := by
  simp only [cc0__row_min_sqdist_kernel_eq_skeleton]; unfold cc0__row_min_sqdist_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    rw [read_writes_whole_cons _ _ hz_S4x512]
    simp only [readAt_whole harg2 hz_S4x512x3, readAt_whole harg3 hz_S4x3x1024, readAt_whole harg5 hz_S4x512, readCov_whole_cons (S := S4x512) arg5.view hz_S4x512]
  iexists _; isplitr
  swap; · iexact HS
  ipureintro
  sl_unfold_run_names
  rw [read_writes_whole_cons _ _ hz_S4x512]
  simp only [readAt_whole harg2 hz_S4x512x3, readAt_whole harg3 hz_S4x3x1024, readAt_whole harg5 hz_S4x512]

end Cert.Kernel.Fr

end
-- ==== Proof.BitsFrBody0.lean ====
import proofs.«140404_j28063316312805_1_alg».proof.Proof.BitsFrRun0

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Call 0 point by point: the running minimum, the invariant, the proof data, the body obligation -/

/-- The class invariant (every scoped buffer that is no staging buffer of this call at some contents, and the generator
    register) with this call's scratch split off. -/
theorem PhiA0_split (c : Dev nD) :
    (Pipeline.ΦA spec0 c : sProp 𝕄) ⊢ iprop((∃ d, owns (c : Thread nD τ) scM0 fullShare d) ∗ restS0 c ∗ (∃ r, prngReg c r)) := by
  unfold Pipeline.ΦA restS0; rw [scopedRest0_eq]; simp only [scM0, owns_whole]
  iintro ⟨⟨S, R1, R2, R3, R4, R5, R6, R7⟩, Hg⟩
  isplitl [S]; · iexact S
  isplitr [Hg]
  · isplitl [R1]; · iexact R1
    isplitl [R2]; · iexact R2
    isplitl [R3]; · iexact R3
    isplitl [R4]; · iexact R4
    isplitl [R5]; · iexact R5
    isplitl [R6]; · iexact R6
    iexact R7
  iexact Hg

theorem PhiA0_join (c : Dev nD) :
    iprop((∃ d, owns (c : Thread nD τ) scM0 fullShare d) ∗ restS0 c ∗ (∃ r, prngReg c r)) ⊢ (Pipeline.ΦA spec0 c : sProp 𝕄) := by
  unfold Pipeline.ΦA restS0; rw [scopedRest0_eq]; simp only [scM0, owns_whole]
  iintro ⟨S, ⟨R1, R2, R3, R4, R5, R6, R7⟩, Hg⟩
  isplitr [Hg]
  · isplitl [S]; · iexact S
    isplitl [R1]; · iexact R1
    isplitl [R2]; · iexact R2
    isplitl [R3]; · iexact R3
    isplitl [R4]; · iexact R4
    isplitl [R5]; · iexact R5
    isplitl [R6]; · iexact R6
    iexact R7
  iexact Hg

section
variable (V : (c : Dev nD) → (b : Ref sig .tc) → Buf (Elt F) ((c : Thread nD τ).loc b))

/-- THE RUNNING MINIMUM after the point at position `n` (row-major: row block `n / 8`, tile `n % 8`): the new minimum
    (`k0_pay2`) of the point's two blocks and of `+∞` at a row block's first tile, of what the point before left
    otherwise. -/
def accAt0 (c : Dev nD) : (n : ℕ) → n < cfg0.N → Vec F S4x512 .f32
  | 0, hn => k0_pay2 (iblk0 V c 0 ⟨0, hn⟩) (iblk0 V c 1 ⟨0, hn⟩) (k0_pay1 (F := F))
  | n + 1, hn => k0_pay2 (iblk0 V c 0 ⟨n + 1, hn⟩) (iblk0 V c 1 ⟨n + 1, hn⟩)
      (if (n + 1) % 8 = 0 then (k0_pay1 (F := F)) else accAt0 c n (Nat.lt_of_succ_lt hn))

theorem accAt0_first (c : Dev nD) (t : Fin cfg0.N) (h0 : t.val % 8 = 0) :
    accAt0 V c t.val t.isLt = k0_pay2 (iblk0 V c 0 t) (iblk0 V c 1 t) (k0_pay1 (F := F)) := by
  obtain ⟨n, hn⟩ := t
  cases n with
  | zero => rfl
  | succ n => exact congrArg _ (if_pos h0)

theorem accAt0_next (c : Dev nD) (t : Fin cfg0.N) (h0 : ¬t.val % 8 = 0) :
    accAt0 V c t.val t.isLt = k0_pay2 (iblk0 V c 0 t) (iblk0 V c 1 t)
      (accAt0 V c (t.val - 1) (Nat.lt_of_le_of_lt (Nat.sub_le _ _) t.isLt)) := by
  obtain ⟨n, hn⟩ := t
  cases n with
  | zero => exact absurd (Nat.zero_mod _) h0
  | succ n => exact congrArg _ (if_neg h0)

/-- The invariant before position `n`: before the first point the class's; afterwards the scratch at the running
    minimum the point before left, the other scoped buffers and the generator register at anything. -/
def PhiS0 (c : Dev nD) : (n : ℕ) → n ≤ cfg0.N → sProp 𝕄
  | 0, _ => Pipeline.ΦA spec0 c
  | n + 1, hn => iprop(owns (c : Thread nD τ) scM0 fullShare (accAt0 V c n hn) ∗ restS0 c ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(owns (c : Thread nD τ) scM0 fullShare (accAt0 V c n hn) ∗ restS0 c ∗ (∃ r, prngReg c r)) := rfl
theorem PhiS0_pos (c : Dev nD) (n : ℕ) (h : n ≤ cfg0.N) (hz : n ≠ 0) :
    PhiS0 V c n h = iprop(owns (c : Thread nD τ) scM0 fullShare (accAt0 V c (n - 1) (by omega)) ∗ restS0 c ∗ (∃ r, prngReg c r)) := by
  cases n with
  | zero => exact absurd rfl hz
  | succ n => rfl

/-- The proof data of call 0 on core `c`: the arrays as the call finds them; after the body each input's buffer at its
    block, the output's at the running minimum (consulted only where the block is written back: the last tile of a
    row block); the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => accAt0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = accAt0 V c t.val t.isLt := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))
/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' buffers hold their blocks; the position modulo 8 says which case the point is in;
    the invariant hands over the scratch at what the point before left (at anything at a row block's first tile) and
    takes it back at this point's running minimum; the output's buffer is left alone except at the last tile. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 128 := lt_of_lt_of_eq t.isLt (show cfg0.N = 128 from N_0)
  by_cases h1 : t.val % 8 = 7
  · have h0 : ¬t.val % 8 = 0 := by omega
    have hz : t.val ≠ 0 := by omega
    rw [show (dat0 V c).leavesExact 2 t = owns (c : Thread nD τ) (ms0_2 t) fullShare ((dat0 V c).after 2 t) from by
      unfold Dat.leavesExact; rw [liveAt0_2 t ((hcond0_1 t).mpr h1)], after0_2]
    rw [accAt0_next V c t h0, PhiS0_castSucc V c t, PhiS0_pos V c _ _ hz]
    iintro ⟨⟨HS, Hr, Hg⟩, Ho, ⟨%d0, H0⟩, ⟨%d1, H1⟩, ⟨%d2, H2⟩⟩
    iapply (run0_C c (grid0.coords t) (ms0_0 t) (hs0_0 t) (ms0_1 t) (hs0_1 t) (ms0_2 t) (hs0_2 t) scM0 (Memref.isWhole_whole _)
      (fun h => h0 ((hcond0_0 t).mp h)) ((hcond0_1 t).mpr h1) (iblk0 V c 0 t) (iblk0 V c 1 t) _ Set.univ _)
    isplitl [H0]; · iexact H0
    isplitl [H1]; · iexact H1
    isplitl [H2]; · iexists _; iexact H2
    isplitl [HS]; · iexact HS
    iintro ⟨H0, H1, H2, HS⟩
    isplitl [HS Hr Hg]
    · isplitl [HS]; · iexact HS
      isplitl [Hr]; · iexact Hr
      iexact Hg
    isplitl [Ho]; · iexact Ho
    isplitl [H0]; · iexact H0
    isplitl [H1]; · iexact H1
    iexact H2
  · have hnc1 : ¬cond0_1 (grid0.coords t) := fun h => h1 ((hcond0_1 t).mp h)
    rw [Dat.leavesExact_idle (dat0 V c) 2 t (idleAt0_2 t hnc1) (noFlush0_2 t hnc1)]
    by_cases h0 : t.val % 8 = 0
    · rw [accAt0_first V c t h0]
      by_cases hz : t.val = 0
      · rw [PhiS0_castSucc V c t, PhiS0_zero V c _ _ hz]
        iintro ⟨HΦ, Ho, ⟨%d0, H0⟩, ⟨%d1, H1⟩, ⟨%d2, H2⟩⟩
        ihave HΦ' := (PhiA0_split c) $$ HΦ
        icases HΦ' with ⟨HS, Hr, Hg⟩
        iapply (run0_A c (grid0.coords t) (ms0_0 t) (hs0_0 t) (ms0_1 t) (hs0_1 t) (ms0_2 t) (hs0_2 t) scM0 (Memref.isWhole_whole _)
          ((hcond0_0 t).mpr h0) hnc1 (iblk0 V c 0 t) (iblk0 V c 1 t) Set.univ _)
        isplitl [H0]; · iexact H0
        isplitl [H1]; · iexact H1
        isplitl [HS]; · iexact HS
        iintro ⟨H0, H1, HS⟩
        isplitl [HS Hr Hg]
        · isplitl [HS]; · iexact HS
          isplitl [Hr]; · iexact Hr
          iexact Hg
        isplitl [Ho]; · iexact Ho
        isplitl [H0]; · iexact H0
        isplitl [H1]; · iexact H1
        iexists _; iexact H2
      · rw [PhiS0_castSucc V c t, PhiS0_pos V c _ _ hz]
        iintro ⟨⟨HS, Hr, Hg⟩, Ho, ⟨%d0, H0⟩, ⟨%d1, H1⟩, ⟨%d2, H2⟩⟩
        iapply (run0_A c (grid0.coords t) (ms0_0 t) (hs0_0 t) (ms0_1 t) (hs0_1 t) (ms0_2 t) (hs0_2 t) scM0 (Memref.isWhole_whole _)
          ((hcond0_0 t).mpr h0) hnc1 (iblk0 V c 0 t) (iblk0 V c 1 t) Set.univ _)
        isplitl [H0]; · iexact H0
        isplitl [H1]; · iexact H1
        isplitl [HS]; · iexists _; iexact HS
        iintro ⟨H0, H1, HS⟩
        isplitl [HS Hr Hg]
        · isplitl [HS]; · iexact HS
          isplitl [Hr]; · iexact Hr
          iexact Hg
        isplitl [Ho]; · iexact Ho
        isplitl [H0]; · iexact H0
        isplitl [H1]; · iexact H1
        iexists _; iexact H2
    · have hz : t.val ≠ 0 := by omega
      rw [accAt0_next V c t h0, PhiS0_castSucc V c t, PhiS0_pos V c _ _ hz]
      iintro ⟨⟨HS, Hr, Hg⟩, Ho, ⟨%d0, H0⟩, ⟨%d1, H1⟩, ⟨%d2, H2⟩⟩
      iapply (run0_B c (grid0.coords t) (ms0_0 t) (hs0_0 t) (ms0_1 t) (hs0_1 t) (ms0_2 t) (hs0_2 t) scM0 (Memref.isWhole_whole _)
        (fun h => h0 ((hcond0_0 t).mp h)) hnc1 (iblk0 V c 0 t) (iblk0 V c 1 t) _ Set.univ _)
      isplitl [H0]; · iexact H0
      isplitl [H1]; · iexact H1
      isplitl [HS]; · iexact HS
      iintro ⟨H0, H1, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the call is the invariant before the first point, -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- and after the last point the invariant gives it back, the scratch's contents forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega)]
  iintro ⟨HS, Hr, Hg⟩
  iapply (PhiA0_join c)
  isplitl [HS]; · iexists _; iexact HS
  isplitl [Hr]; · iexact Hr
  iexact Hg

end

end Cert.Kernel.Fr

end
-- ==== Proof.BitsFrRun1.lean ====
import proofs.«140404_j28063316312805_1_alg».proof.Proof.BitsFrShared

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Call 1's body, case by case

The body keeps a running minimum in its scratch: at a point whose second coordinate is 0 it first resets the scratch to
`+∞`; at every point it replaces the scratch by the new minimum (`k1_pay2` of the two staged blocks and the scratch);
at a point whose second coordinate is 7 it copies the scratch into the output block. Every load and store is of a whole
buffer, so each buffer ends at a named value. -/

set_option maxHeartbeats 1000000 in
/-- First tile of a row block: the scratch (at anything) ends at the minimum over the tile alone. -/
theorem run1_A (c : Dev nD) (i : grid1.Coords) (arg2 : Memref sig .tc .vmem S4x512x3 .f32) (harg2 : arg2.IsWhole) (arg3 : Memref sig .tc .vmem S4x3x1024 .f32) (harg3 : arg3.IsWhole) (arg4 : Memref sig .tc .vmem S4x512 .f32) (harg4 : arg4.IsWhole) (arg5 : Memref sig .tc .vmem S4x512 .f32) (harg5 : arg5.IsWhole) (hc0 : cond1_0 i) (hc1 : ¬cond1_1 i)
    (x0 : Vec F S4x512x3 .f32) (x1 : Vec F S4x3x1024 .f32) (E : Set ℕ) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1 ∗ owns (c : Thread nD τ) arg5 fullShare (k1_pay2 x0 x1 (k1_pay1 (F := F)))) -∗ K ⟨⟩))
      ⊢ wp frame (wpE (defs₀ (F := F)) Variants.none c none) E (cc1__row_min_sqdist_kernel i arg2 harg2 arg3 harg3 arg4 harg4 arg5 harg5) K := by
  simp only [cc1__row_min_sqdist_kernel_eq_skeleton]; unfold cc1__row_min_sqdist_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_run_names
  rw [read_writes_whole_cons _ _ hz_S4x512]
  simp only [readAt_whole harg2 hz_S4x512x3, readAt_whole harg3 hz_S4x3x1024, readCov_whole_cons (S := S4x512) arg5.view hz_S4x512]

set_option maxHeartbeats 1000000 in
/-- A middle tile: the scratch, at `xs`, ends at the minimum of `xs` and the tile's. -/
theorem run1_B (c : Dev nD) (i : grid1.Coords) (arg2 : Memref sig .tc .vmem S4x512x3 .f32) (harg2 : arg2.IsWhole) (arg3 : Memref sig .tc .vmem S4x3x1024 .f32) (harg3 : arg3.IsWhole) (arg4 : Memref sig .tc .vmem S4x512 .f32) (harg4 : arg4.IsWhole) (arg5 : Memref sig .tc .vmem S4x512 .f32) (harg5 : arg5.IsWhole) (hc0 : ¬cond1_0 i) (hc1 : ¬cond1_1 i)
    (x0 : Vec F S4x512x3 .f32) (x1 : Vec F S4x3x1024 .f32) (xs : Vec F S4x512 .f32) (E : Set ℕ) (K : PUnit → sProp 𝕄) :
    iprop(owns (c : Thread nD τ) arg2 fullShare x0 ∗ owns (c : Thread nD τ) arg3 fullShare x1 ∗ owns (c : Thread nD τ) arg5 fullShare xs
        ∗ (iprop(owns (c : Thread nD τ) arg2 fullShare x0 ∗ owns (c : Thread nD τ) arg3 fullShare x1 ∗ owns (c : Thread nD τ) arg5 fullShare (k1_pay2 x0 x1 xs)) -∗ K ⟨⟩))
      ⊢ wp frame (wpE (defs₀ (F := F)) Variants.none c none) E (cc1__row_min_sqdist_kernel i arg2 harg2 arg3 harg3 arg4 harg4 arg5 harg5) K := by
  simp only [cc1__row_min_sqdist_kernel_eq_skeleton]; unfold cc1__row_min_sqdist_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_run_names
  rw [read_writes_whole_cons _ _ hz_S4x512]
  simp only [readAt_whole harg2 hz_S4x512x3, readAt_whole harg3 hz_S4x3x1024, readAt_whole harg5 hz_S4x512]

set_option maxHeartbeats 1000000 in
/-- The last tile: as a middle tile, and the output block (at anything) ends at the scratch's new value. -/
theorem run1_C (c : Dev nD) (i : grid1.Coords) (arg2 : Memref sig .tc .vmem S4x512x3 .f32) (harg2 : arg2.IsWhole) (arg3 : Memref sig .tc .vmem S4x3x1024 .f32) (harg3 : arg3.IsWhole) (arg4 : Memref sig .tc .vmem S4x512 .f32) (harg4 : arg4.IsWhole) (arg5 : Memref sig .tc .vmem S4x512 .f32) (harg5 : arg5.IsWhole) (hc0 : ¬cond1_0 i) (hc1 : cond1_1 i)
    (x0 : Vec F S4x512x3 .f32) (x1 : Vec F S4x3x1024 .f32) (xs : Vec F S4x512 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k1_pay2 x0 x1 xs) ∗ owns (c : Thread nD τ) arg5 fullShare (k1_pay2 x0 x1 xs)) -∗ K ⟨⟩))
      ⊢ wp frame (wpE (defs₀ (F := F)) Variants.none c none) E (cc1__row_min_sqdist_kernel i arg2 harg2 arg3 harg3 arg4 harg4 arg5 harg5) K := by
  simp only [cc1__row_min_sqdist_kernel_eq_skeleton]; unfold cc1__row_min_sqdist_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    rw [read_writes_whole_cons _ _ hz_S4x512]
    simp only [readAt_whole harg2 hz_S4x512x3, readAt_whole harg3 hz_S4x3x1024, readAt_whole harg5 hz_S4x512, readCov_whole_cons (S := S4x512) arg5.view hz_S4x512]
  iexists _; isplitr
  swap; · iexact HS
  ipureintro
  sl_unfold_run_names
  rw [read_writes_whole_cons _ _ hz_S4x512]
  simp only [readAt_whole harg2 hz_S4x512x3, readAt_whole harg3 hz_S4x3x1024, readAt_whole harg5 hz_S4x512]

end Cert.Kernel.Fr

end
-- ==== Proof.BitsFrBody1.lean ====
import proofs.«140404_j28063316312805_1_alg».proof.Proof.BitsFrRun1

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Call 1 point by point: the running minimum, the invariant, the proof data, the body obligation -/

/-- The class invariant (every scoped buffer that is no staging buffer of this call at some contents, and the generator
    register) with this call's scratch split off. -/
theorem PhiA1_split (c : Dev nD) :
    (Pipeline.ΦA spec1 c : sProp 𝕄) ⊢ iprop((∃ d, owns (c : Thread nD τ) scM1 fullShare d) ∗ restS1 c ∗ (∃ r, prngReg c r)) := by
  unfold Pipeline.ΦA restS1; rw [scopedRest1_eq]; simp only [scM1, owns_whole]
  iintro ⟨⟨R1, R2, R3, R4, R5, R6, R7, S⟩, Hg⟩
  isplitl [S]; · iexact S
  isplitr [Hg]
  · isplitl [R1]; · iexact R1
    isplitl [R2]; · iexact R2
    isplitl [R3]; · iexact R3
    isplitl [R4]; · iexact R4
    isplitl [R5]; · iexact R5
    isplitl [R6]; · iexact R6
    iexact R7
  iexact Hg

theorem PhiA1_join (c : Dev nD) :
    iprop((∃ d, owns (c : Thread nD τ) scM1 fullShare d) ∗ restS1 c ∗ (∃ r, prngReg c r)) ⊢ (Pipeline.ΦA spec1 c : sProp 𝕄) := by
  unfold Pipeline.ΦA restS1; rw [scopedRest1_eq]; simp only [scM1, owns_whole]
  iintro ⟨S, ⟨R1, R2, R3, R4, R5, R6, R7⟩, Hg⟩
  isplitr [Hg]
  · isplitl [R1]; · iexact R1
    isplitl [R2]; · iexact R2
    isplitl [R3]; · iexact R3
    isplitl [R4]; · iexact R4
    isplitl [R5]; · iexact R5
    isplitl [R6]; · iexact R6
    isplitl [R7]; · iexact R7
    iexact S
  iexact Hg

section
variable (V : (c : Dev nD) → (b : Ref sig .tc) → Buf (Elt F) ((c : Thread nD τ).loc b))

/-- THE RUNNING MINIMUM after the point at position `n` (row-major: row block `n / 8`, tile `n % 8`): the new minimum
    (`k1_pay2`) of the point's two blocks and of `+∞` at a row block's first tile, of what the point before left
    otherwise. -/
def accAt1 (c : Dev nD) : (n : ℕ) → n < cfg1.N → Vec F S4x512 .f32
  | 0, hn => k1_pay2 (iblk1 V c 0 ⟨0, hn⟩) (iblk1 V c 1 ⟨0, hn⟩) (k1_pay1 (F := F))
  | n + 1, hn => k1_pay2 (iblk1 V c 0 ⟨n + 1, hn⟩) (iblk1 V c 1 ⟨n + 1, hn⟩)
      (if (n + 1) % 8 = 0 then (k1_pay1 (F := F)) else accAt1 c n (Nat.lt_of_succ_lt hn))

theorem accAt1_first (c : Dev nD) (t : Fin cfg1.N) (h0 : t.val % 8 = 0) :
    accAt1 V c t.val t.isLt = k1_pay2 (iblk1 V c 0 t) (iblk1 V c 1 t) (k1_pay1 (F := F)) := by
  obtain ⟨n, hn⟩ := t
  cases n with
  | zero => rfl
  | succ n => exact congrArg _ (if_pos h0)

theorem accAt1_next (c : Dev nD) (t : Fin cfg1.N) (h0 : ¬t.val % 8 = 0) :
    accAt1 V c t.val t.isLt = k1_pay2 (iblk1 V c 0 t) (iblk1 V c 1 t)
      (accAt1 V c (t.val - 1) (Nat.lt_of_le_of_lt (Nat.sub_le _ _) t.isLt)) := by
  obtain ⟨n, hn⟩ := t
  cases n with
  | zero => exact absurd (Nat.zero_mod _) h0
  | succ n => exact congrArg _ (if_neg h0)

/-- The invariant before position `n`: before the first point the class's; afterwards the scratch at the running
    minimum the point before left, the other scoped buffers and the generator register at anything. -/
def PhiS1 (c : Dev nD) : (n : ℕ) → n ≤ cfg1.N → sProp 𝕄
  | 0, _ => Pipeline.ΦA spec1 c
  | n + 1, hn => iprop(owns (c : Thread nD τ) scM1 fullShare (accAt1 V c n hn) ∗ restS1 c ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1 fullShare (accAt1 V c n hn) ∗ restS1 c ∗ (∃ r, prngReg c r)) := rfl
theorem PhiS1_pos (c : Dev nD) (n : ℕ) (h : n ≤ cfg1.N) (hz : n ≠ 0) :
    PhiS1 V c n h = iprop(owns (c : Thread nD τ) scM1 fullShare (accAt1 V c (n - 1) (by omega)) ∗ restS1 c ∗ (∃ r, prngReg c r)) := by
  cases n with
  | zero => exact absurd rfl hz
  | succ n => rfl

/-- The proof data of call 1 on core `c`: the arrays as the call finds them; after the body each input's buffer at its
    block, the output's at the running minimum (consulted only where the block is written back: the last tile of a
    row block); the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt1 V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))
/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks; the position modulo 8 says which case the point is in;
    the invariant hands over the scratch at what the point before left (at anything at a row block's first tile) and
    takes it back at this point's running minimum; the output's buffer is left alone except at the last tile. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 128 := lt_of_lt_of_eq t.isLt (show cfg1.N = 128 from N_1)
  by_cases h1 : t.val % 8 = 7
  · have h0 : ¬t.val % 8 = 0 := by omega
    have hz : t.val ≠ 0 := by omega
    rw [show (dat1 V c).leavesExact 2 t = owns (c : Thread nD τ) (ms1_2 t) fullShare ((dat1 V c).after 2 t) from by
      unfold Dat.leavesExact; rw [liveAt1_2 t ((hcond1_1 t).mpr h1)], after1_2]
    rw [accAt1_next V c t h0, PhiS1_castSucc V c t, PhiS1_pos V c _ _ hz]
    iintro ⟨⟨HS, Hr, Hg⟩, Ho, ⟨%d0, H0⟩, ⟨%d1, H1⟩, ⟨%d2, H2⟩⟩
    iapply (run1_C c (grid1.coords t) (ms1_0 t) (hs1_0 t) (ms1_1 t) (hs1_1 t) (ms1_2 t) (hs1_2 t) scM1 (Memref.isWhole_whole _)
      (fun h => h0 ((hcond1_0 t).mp h)) ((hcond1_1 t).mpr h1) (iblk1 V c 0 t) (iblk1 V c 1 t) _ Set.univ _)
    isplitl [H0]; · iexact H0
    isplitl [H1]; · iexact H1
    isplitl [H2]; · iexists _; iexact H2
    isplitl [HS]; · iexact HS
    iintro ⟨H0, H1, H2, HS⟩
    isplitl [HS Hr Hg]
    · isplitl [HS]; · iexact HS
      isplitl [Hr]; · iexact Hr
      iexact Hg
    isplitl [Ho]; · iexact Ho
    isplitl [H0]; · iexact H0
    isplitl [H1]; · iexact H1
    iexact H2
  · have hnc1 : ¬cond1_1 (grid1.coords t) := fun h => h1 ((hcond1_1 t).mp h)
    rw [Dat.leavesExact_idle (dat1 V c) 2 t (idleAt1_2 t hnc1) (noFlush1_2 t hnc1)]
    by_cases h0 : t.val % 8 = 0
    · rw [accAt1_first V c t h0]
      by_cases hz : t.val = 0
      · rw [PhiS1_castSucc V c t, PhiS1_zero V c _ _ hz]
        iintro ⟨HΦ, Ho, ⟨%d0, H0⟩, ⟨%d1, H1⟩, ⟨%d2, H2⟩⟩
        ihave HΦ' := (PhiA1_split c) $$ HΦ
        icases HΦ' with ⟨HS, Hr, Hg⟩
        iapply (run1_A c (grid1.coords t) (ms1_0 t) (hs1_0 t) (ms1_1 t) (hs1_1 t) (ms1_2 t) (hs1_2 t) scM1 (Memref.isWhole_whole _)
          ((hcond1_0 t).mpr h0) hnc1 (iblk1 V c 0 t) (iblk1 V c 1 t) Set.univ _)
        isplitl [H0]; · iexact H0
        isplitl [H1]; · iexact H1
        isplitl [HS]; · iexact HS
        iintro ⟨H0, H1, HS⟩
        isplitl [HS Hr Hg]
        · isplitl [HS]; · iexact HS
          isplitl [Hr]; · iexact Hr
          iexact Hg
        isplitl [Ho]; · iexact Ho
        isplitl [H0]; · iexact H0
        isplitl [H1]; · iexact H1
        iexists _; iexact H2
      · rw [PhiS1_castSucc V c t, PhiS1_pos V c _ _ hz]
        iintro ⟨⟨HS, Hr, Hg⟩, Ho, ⟨%d0, H0⟩, ⟨%d1, H1⟩, ⟨%d2, H2⟩⟩
        iapply (run1_A c (grid1.coords t) (ms1_0 t) (hs1_0 t) (ms1_1 t) (hs1_1 t) (ms1_2 t) (hs1_2 t) scM1 (Memref.isWhole_whole _)
          ((hcond1_0 t).mpr h0) hnc1 (iblk1 V c 0 t) (iblk1 V c 1 t) Set.univ _)
        isplitl [H0]; · iexact H0
        isplitl [H1]; · iexact H1
        isplitl [HS]; · iexists _; iexact HS
        iintro ⟨H0, H1, HS⟩
        isplitl [HS Hr Hg]
        · isplitl [HS]; · iexact HS
          isplitl [Hr]; · iexact Hr
          iexact Hg
        isplitl [Ho]; · iexact Ho
        isplitl [H0]; · iexact H0
        isplitl [H1]; · iexact H1
        iexists _; iexact H2
    · have hz : t.val ≠ 0 := by omega
      rw [accAt1_next V c t h0, PhiS1_castSucc V c t, PhiS1_pos V c _ _ hz]
      iintro ⟨⟨HS, Hr, Hg⟩, Ho, ⟨%d0, H0⟩, ⟨%d1, H1⟩, ⟨%d2, H2⟩⟩
      iapply (run1_B c (grid1.coords t) (ms1_0 t) (hs1_0 t) (ms1_1 t) (hs1_1 t) (ms1_2 t) (hs1_2 t) scM1 (Memref.isWhole_whole _)
        (fun h => h0 ((hcond1_0 t).mp h)) hnc1 (iblk1 V c 0 t) (iblk1 V c 1 t) _ Set.univ _)
      isplitl [H0]; · iexact H0
      isplitl [H1]; · iexact H1
      isplitl [HS]; · iexact HS
      iintro ⟨H0, H1, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first point, -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- and after the last point the invariant gives it back, the scratch's contents forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega)]
  iintro ⟨HS, Hr, Hg⟩
  iapply (PhiA1_join c)
  isplitl [HS]; · iexists _; iexact HS
  isplitl [Hr]; · iexact Hr
  iexact Hg

end

end Cert.Kernel.Fr

end
-- ==== Proof.BitsFrRegions.lean ====
import proofs.«140404_j28063316312805_1_alg».proof.Proof.BitsFrBody0
import proofs.«140404_j28063316312805_1_alg».proof.Proof.BitsFrBody1
import proofs.«140404_j28063316312805_1_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The run: @main's five segments from the launch to the return

The buffers' contents at each segment boundary are a fold from the launch memory: a host stretch applies its operations;
a call leaves its arrays at what its write-backs leave (the inputs as entered, the output block by block at the running
minimum's last value) and every other buffer as entered. -/

variable (m : (ℓ : Loc nD τ sig) → Buf (Elt F) ℓ)

/-- Core `c`'s buffers at launch, -/
abbrev W0 : Dev nD → Valuation τ sig (Elt F) := fun c b => m (c, b)
/-- after the first transpose (call 0's entry), -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- at call 0's exit, -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
/-- after the second transpose (call 1's entry), -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- at call 1's exit, -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)
/-- and at the return, after the two means and their sum. -/
abbrev W5 : Dev nD → Valuation τ sig (Elt F) := fun c => StableHlo.after hostOps2 (W4 m c)

/-! ## The arguments end as launched -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (r := main_arg0) (by decide)
    _ = W3 m c (Proc.devRef .tc main_arg0) := W4_of_ne m c main_arg0 (by decide)
    _ = W2 m c (Proc.devRef .tc main_arg0) := StableHlo.after_of_writes_sub hostOps1 _ hostOps1_writes (r := main_arg0) (by decide)
    _ = W1 m c (Proc.devRef .tc main_arg0) := (W2_arr m c 0).trans (((dat0 (U1 m) c).arrAt_in 0 rfl _).trans (A_eq0 (U1 m) c 0))
    _ = W0 m c (Proc.devRef .tc main_arg0) := StableHlo.after_of_writes_sub hostOps0 _ hostOps0_writes (r := main_arg0) (by decide)
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (r := main_arg1) (by decide)
    _ = W3 m c (Proc.devRef .tc main_arg1) := (W4_arr m c 0).trans (((dat1 (U3 m) c).arrAt_in 0 rfl _).trans (A_eq1 (U3 m) c 0))
    _ = W2 m c (Proc.devRef .tc main_arg1) := StableHlo.after_of_writes_sub hostOps1 _ hostOps1_writes (r := main_arg1) (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl

/-! ## The proof data family and the thread state -/

/-- Each call's proof data at its entry contents — a literal match on the call's number. -/
def pd : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
abbrev 𝒱₀ : Variants := Variants.none
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the return's contents, the generator register. -/
abbrev Tₙ (c : Dev nD) : sProp 𝕄 := iprop(StableHlo.held (c : Thread nD τ) (Pipeline.ucRefs τ sig) (W5 m c) ∗ ∃ r, prngReg c r)

-- a library lemma stated over the pinned configuration unifies with the printed one only when unification may unfold
-- plain definitions in a metavariable's type
set_option backward.isDefEq.respectTransparency.types false in
/-- CALL 0 as a segment: entered from every unscoped buffer at `W1`, left at `W2`. Its arrays are split
    out of the unscoped buffers and put back at their exit contents; the generator register and the scoped buffers
    go into the invariant and come back; nothing is owed; the kernel has no semaphore of its own. -/
def reg0 : Pipeline.RegionSeg (pcfgs (F := F)) adm (pd m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pd m) launch0.win launch0.arr_whole c
      ((pd m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 0 c).Φ 0 = Pipeline.ΦA spec0 c from rfl]; unfold Pipeline.ΦA
    iintro ⟨Hp, -, Hr⟩
    isplitl [Hr]; · iexact Hr
    iexact Hp
  hout c := by
    refine (hout0 (U1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pd m) ((pd m 0 c).share_full fun _ => rfl)
      (U1 m c) (U2 m c) ((pd m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- CALL 1 as a segment: entered from every unscoped buffer at `W3`, left at `W4`. Its arrays are split
    out of the unscoped buffers and put back at their exit contents; the generator register and the scoped buffers
    go into the invariant and come back; nothing is owed; the kernel has no semaphore of its own. -/
def reg1 : Pipeline.RegionSeg (pcfgs (F := F)) adm (pd m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pd m) launch1.win launch1.arr_whole c
      ((pd m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 1 c).Φ 0 = Pipeline.ΦA spec1 c from rfl]; unfold Pipeline.ΦA
    iintro ⟨Hp, -, Hr⟩
    isplitl [Hr]; · iexact Hr
    iexact Hp
  hout c := by
    refine (hout1 (U3 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pd m) ((pd m 1 c).share_full fun _ => rfl)
      (U3 m c) (U4 m c) ((pd m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's five segments in order. -/
abbrev segList : List (Pipeline.Seg (pcfgs (F := F)) adm (pd m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
theorem main_run (c : Dev nD) : main (F := F) c = Pipeline.Seg.run (segList m) := (main_chain c).trans (by chain_rfl)

variable (ρ : Dev nD → PrngReg)

set_option backward.isDefEq.respectTransparency.types false in
/-- THE RUN. From any memory with zero counters every weakly fair execution of @main terminates, faulting nowhere, and
    every final memory holds every unscoped buffer at the return's contents `W5`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pd m) () cellOf_inj emb₁ defs₀ 𝒱₀ L lv m ρ main (segList m)
    (fun c Q => by rw [main_run m c])
    (by simp only [segList, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME at any `F`: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c _ (mem_uc main_arg0 (by decide))).trans (W5_main_arg0 m c),
    (h c _ (mem_uc main_arg1 (by decide))).trans (W5_main_arg1 m c)⟩) (run_main m ρ)

end Cert.Kernel.Fr

end
-- ==== Proof.FrShared.lean ====
import proofs.«140404_j28063316312805_1_alg».proof.Proof.Gen.KernelIdeal.Launch
import proofs.«140404_j28063316312805_1_alg».proof.Proof.Gen.KernelIdeal.Skeleton
import proofs.«140404_j28063316312805_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Call 0: the blocks its windows stage, the branch conditions over the grid, the idle points -/

section Call0
variable (V : (c : Dev nD) → (b : Ref sig .tc) → Buf (Elt F) ((c : Thread nD τ).loc b))

/-- Window `w`'s block at grid point `t`: the rectangle of the window's array (as the call finds it, `V`) that the
    index map selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetched it or the
    index had not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Call0

/-- The first branch of the body (reset the running minimum) is taken where the second grid coordinate is 0, -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- and the last (copy the running minimum out) where it is 7: the points ≡ 0 and ≡ 7 (mod 8) in row-major order. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-- The two input windows are never idle; the output window is idle, and not written back, exactly where the last
    branch is not taken. -/
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-- The staging memrefs the pipeline passes the body at point `t`, and the scratch that carries the running minimum. -/
abbrev ms0_0 (t : Fin cfg0.N) : Memref sig .tc .vmem S4x512x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x3x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x512 .f32 := win0_2.stage (cfg0.slots t 2)
abbrev hs0_2 (t : Fin cfg0.N) : (ms0_2 t).IsWhole := hstage0_2 ((cfg0.slots t 2).cast nbuf0_2)
abbrev scM0 : Memref sig .tc .vmem S4x512 .f32 := Memref.whole cc0_scratch0

/-- The other scoped buffers of the core (the other call's staging buffers and scratch), each whole at some contents:
    what call 0's body never touches. -/
def restS0 (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-! # Call 1: the blocks its windows stage, the branch conditions over the grid, the idle points -/

section Call1
variable (V : (c : Dev nD) → (b : Ref sig .tc) → Buf (Elt F) ((c : Thread nD τ).loc b))

/-- Window `w`'s block at grid point `t`: the rectangle of the window's array (as the call finds it, `V`) that the
    index map selects there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetched it or the
    index had not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Call1

/-- The first branch of the body (reset the running minimum) is taken where the second grid coordinate is 0, -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- and the last (copy the running minimum out) where it is 7: the points ≡ 0 and ≡ 7 (mod 8) in row-major order. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-- The two input windows are never idle; the output window is idle, and not written back, exactly where the last
    branch is not taken. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-- The staging memrefs the pipeline passes the body at point `t`, and the scratch that carries the running minimum. -/
abbrev ms1_0 (t : Fin cfg1.N) : Memref sig .tc .vmem S4x512x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4x3x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x512 .f32 := win1_2.stage (cfg1.slots t 2)
abbrev hs1_2 (t : Fin cfg1.N) : (ms1_2 t).IsWhole := hstage1_2 ((cfg1.slots t 2).cast nbuf1_2)
abbrev scM1 : Memref sig .tc .vmem S4x512 .f32 := Memref.whole cc1_scratch0

/-- The other scoped buffers of the core (the other call's staging buffers and scratch), each whole at some contents:
    what call 1's body never touches. -/
def restS1 (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-! ## Whole-buffer stores and loads read back -/

section Whole
variable {Val : EltTy → Type} [∀ e, Nonempty (Val e)] {sig' : RefSig} {κ : Kind} {sp : Space} {S : Shape} {e : EltTy}

/-- After a store through the whole-buffer rectangle, LAST, the buffer reads as that store's payload, whatever
    was stored before. -/
theorem read_writes_whole_cons (v : View sig' κ sp S e) (f : v.ty.Contents Val) {off : Fin S.rank → Nat} (hz : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, by
    subst hz; show y ∈ (Rect.whole S).set; rw [Rect.set_whole]; exact Finset.mem_univ y⟩), View.canon_cons_unit_zero hz]

/-- A whole-buffer load of a whole buffer's contents is the contents. -/
theorem readAt_whole {m : Memref sig' κ sp S e} (h : m.IsWhole) {off : Fin S.rank → Nat} (hz : off = fun _ => 0)
    (inb : ∀ a, off a + S.size a ≤ S.size a) (X : S.Idx → Val e) :
    m.view.readAt Val (Rect.unit off S.size inb).toLoadRect (h.unread X) = X := by
  subst hz
  show View.ld (m.view.read Val (h.unread X)) (Rect.unit (fun _ => 0) S.size inb) = X
  rw [h.read_unread, View.ld_unit_zero rfl]

/-- A whole-buffer load after stores the last of which was a whole-buffer store reads that store's payload. -/
theorem readCov_whole_cons (v : View sig' κ sp S e) {off : Fin S.rank → Nat} (hz : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst hz
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

end Whole

theorem hz_S4x512 : (![0, 0] : Fin S4x512.rank → Nat) = fun _ => 0 := by funext a; fin_cases a <;> rfl
theorem hz_S4x512x3 : (![0, 0, 0] : Fin S4x512x3.rank → Nat) = fun _ => 0 := by funext a; fin_cases a <;> rfl
theorem hz_S4x3x1024 : (![0, 0, 0] : Fin S4x3x1024.rank → Nat) = fun _ => 0 := by funext a; fin_cases a <;> rfl

end Cert.KernelIdeal.Fr

end
-- ==== Proof.FrRun0.lean ====
import proofs.«140404_j28063316312805_1_alg».proof.Proof.FrShared

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Call 0's body, case by case

The body keeps a running minimum in its scratch: at a point whose second coordinate is 0 it first resets the scratch to
`+∞`; at every point it replaces the scratch by the new minimum (`k0_pay2` of the two staged blocks and the scratch);
at a point whose second coordinate is 7 it copies the scratch into the output block. Every load and store is of a whole
buffer, so each buffer ends at a named value. -/

set_option maxHeartbeats 1000000 in
/-- First tile of a row block: the scratch (at anything) ends at the minimum over the tile alone. -/
theorem run0_A (c : Dev nD) (i : grid0.Coords) (arg2 : Memref sig .tc .vmem S4x512x3 .f32) (harg2 : arg2.IsWhole) (arg3 : Memref sig .tc .vmem S4x3x1024 .f32) (harg3 : arg3.IsWhole) (arg4 : Memref sig .tc .vmem S4x512 .f32) (harg4 : arg4.IsWhole) (arg5 : Memref sig .tc .vmem S4x512 .f32) (harg5 : arg5.IsWhole) (hc0 : cond0_0 i) (hc1 : ¬cond0_1 i)
    (x0 : Vec F S4x512x3 .f32) (x1 : Vec F S4x3x1024 .f32) (E : Set ℕ) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1 ∗ owns (c : Thread nD τ) arg5 fullShare (k0_pay2 x0 x1 (k0_pay1 (F := F)))) -∗ K ⟨⟩))
      ⊢ wp frame (wpE (defs₀ (F := F)) Variants.none c none) E (cc0__row_min_sqdist_kernel i arg2 harg2 arg3 harg3 arg4 harg4 arg5 harg5) K := by
  simp only [cc0__row_min_sqdist_kernel_eq_skeleton]; unfold cc0__row_min_sqdist_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_run_names
  rw [read_writes_whole_cons _ _ hz_S4x512]
  simp only [readAt_whole harg2 hz_S4x512x3, readAt_whole harg3 hz_S4x3x1024, readCov_whole_cons (S := S4x512) arg5.view hz_S4x512]

set_option maxHeartbeats 1000000 in
/-- A middle tile: the scratch, at `xs`, ends at the minimum of `xs` and the tile's. -/
theorem run0_B (c : Dev nD) (i : grid0.Coords) (arg2 : Memref sig .tc .vmem S4x512x3 .f32) (harg2 : arg2.IsWhole) (arg3 : Memref sig .tc .vmem S4x3x1024 .f32) (harg3 : arg3.IsWhole) (arg4 : Memref sig .tc .vmem S4x512 .f32) (harg4 : arg4.IsWhole) (arg5 : Memref sig .tc .vmem S4x512 .f32) (harg5 : arg5.IsWhole) (hc0 : ¬cond0_0 i) (hc1 : ¬cond0_1 i)
    (x0 : Vec F S4x512x3 .f32) (x1 : Vec F S4x3x1024 .f32) (xs : Vec F S4x512 .f32) (E : Set ℕ) (K : PUnit → sProp 𝕄) :
    iprop(owns (c : Thread nD τ) arg2 fullShare x0 ∗ owns (c : Thread nD τ) arg3 fullShare x1 ∗ owns (c : Thread nD τ) arg5 fullShare xs
        ∗ (iprop(owns (c : Thread nD τ) arg2 fullShare x0 ∗ owns (c : Thread nD τ) arg3 fullShare x1 ∗ owns (c : Thread nD τ) arg5 fullShare (k0_pay2 x0 x1 xs)) -∗ K ⟨⟩))
      ⊢ wp frame (wpE (defs₀ (F := F)) Variants.none c none) E (cc0__row_min_sqdist_kernel i arg2 harg2 arg3 harg3 arg4 harg4 arg5 harg5) K := by
  simp only [cc0__row_min_sqdist_kernel_eq_skeleton]; unfold cc0__row_min_sqdist_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_run_names
  rw [read_writes_whole_cons _ _ hz_S4x512]
  simp only [readAt_whole harg2 hz_S4x512x3, readAt_whole harg3 hz_S4x3x1024, readAt_whole harg5 hz_S4x512]

set_option maxHeartbeats 1000000 in
/-- The last tile: as a middle tile, and the output block (at anything) ends at the scratch's new value. -/
theorem run0_C (c : Dev nD) (i : grid0.Coords) (arg2 : Memref sig .tc .vmem S4x512x3 .f32) (harg2 : arg2.IsWhole) (arg3 : Memref sig .tc .vmem S4x3x1024 .f32) (harg3 : arg3.IsWhole) (arg4 : Memref sig .tc .vmem S4x512 .f32) (harg4 : arg4.IsWhole) (arg5 : Memref sig .tc .vmem S4x512 .f32) (harg5 : arg5.IsWhole) (hc0 : ¬cond0_0 i) (hc1 : cond0_1 i)
    (x0 : Vec F S4x512x3 .f32) (x1 : Vec F S4x3x1024 .f32) (xs : Vec F S4x512 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k0_pay2 x0 x1 xs) ∗ owns (c : Thread nD τ) arg5 fullShare (k0_pay2 x0 x1 xs)) -∗ K ⟨⟩))
      ⊢ wp frame (wpE (defs₀ (F := F)) Variants.none c none) E (cc0__row_min_sqdist_kernel i arg2 harg2 arg3 harg3 arg4 harg4 arg5 harg5) K := by
  simp only [cc0__row_min_sqdist_kernel_eq_skeleton]; unfold cc0__row_min_sqdist_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    rw [read_writes_whole_cons _ _ hz_S4x512]
    simp only [readAt_whole harg2 hz_S4x512x3, readAt_whole harg3 hz_S4x3x1024, readAt_whole harg5 hz_S4x512, readCov_whole_cons (S := S4x512) arg5.view hz_S4x512]
  iexists _; isplitr
  swap; · iexact HS
  ipureintro
  sl_unfold_run_names
  rw [read_writes_whole_cons _ _ hz_S4x512]
  simp only [readAt_whole harg2 hz_S4x512x3, readAt_whole harg3 hz_S4x3x1024, readAt_whole harg5 hz_S4x512]

end Cert.KernelIdeal.Fr

end
-- ==== Proof.FrBody0.lean ====
import proofs.«140404_j28063316312805_1_alg».proof.Proof.FrRun0

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Call 0 point by point: the running minimum, the invariant, the proof data, the body obligation -/

/-- The class invariant (every scoped buffer that is no staging buffer of this call at some contents, and the generator
    register) with this call's scratch split off. -/
theorem PhiA0_split (c : Dev nD) :
    (Pipeline.ΦA spec0 c : sProp 𝕄) ⊢ iprop((∃ d, owns (c : Thread nD τ) scM0 fullShare d) ∗ restS0 c ∗ (∃ r, prngReg c r)) := by
  unfold Pipeline.ΦA restS0; rw [scopedRest0_eq]; simp only [scM0, owns_whole]
  iintro ⟨⟨S, R1, R2, R3, R4, R5, R6, R7⟩, Hg⟩
  isplitl [S]; · iexact S
  isplitr [Hg]
  · isplitl [R1]; · iexact R1
    isplitl [R2]; · iexact R2
    isplitl [R3]; · iexact R3
    isplitl [R4]; · iexact R4
    isplitl [R5]; · iexact R5
    isplitl [R6]; · iexact R6
    iexact R7
  iexact Hg

theorem PhiA0_join (c : Dev nD) :
    iprop((∃ d, owns (c : Thread nD τ) scM0 fullShare d) ∗ restS0 c ∗ (∃ r, prngReg c r)) ⊢ (Pipeline.ΦA spec0 c : sProp 𝕄) := by
  unfold Pipeline.ΦA restS0; rw [scopedRest0_eq]; simp only [scM0, owns_whole]
  iintro ⟨S, ⟨R1, R2, R3, R4, R5, R6, R7⟩, Hg⟩
  isplitr [Hg]
  · isplitl [S]; · iexact S
    isplitl [R1]; · iexact R1
    isplitl [R2]; · iexact R2
    isplitl [R3]; · iexact R3
    isplitl [R4]; · iexact R4
    isplitl [R5]; · iexact R5
    isplitl [R6]; · iexact R6
    iexact R7
  iexact Hg

section
variable (V : (c : Dev nD) → (b : Ref sig .tc) → Buf (Elt F) ((c : Thread nD τ).loc b))

/-- THE RUNNING MINIMUM after the point at position `n` (row-major: row block `n / 8`, tile `n % 8`): the new minimum
    (`k0_pay2`) of the point's two blocks and of `+∞` at a row block's first tile, of what the point before left
    otherwise. -/
def accAt0 (c : Dev nD) : (n : ℕ) → n < cfg0.N → Vec F S4x512 .f32
  | 0, hn => k0_pay2 (iblk0 V c 0 ⟨0, hn⟩) (iblk0 V c 1 ⟨0, hn⟩) (k0_pay1 (F := F))
  | n + 1, hn => k0_pay2 (iblk0 V c 0 ⟨n + 1, hn⟩) (iblk0 V c 1 ⟨n + 1, hn⟩)
      (if (n + 1) % 8 = 0 then (k0_pay1 (F := F)) else accAt0 c n (Nat.lt_of_succ_lt hn))

theorem accAt0_first (c : Dev nD) (t : Fin cfg0.N) (h0 : t.val % 8 = 0) :
    accAt0 V c t.val t.isLt = k0_pay2 (iblk0 V c 0 t) (iblk0 V c 1 t) (k0_pay1 (F := F)) := by
  obtain ⟨n, hn⟩ := t
  cases n with
  | zero => rfl
  | succ n => exact congrArg _ (if_pos h0)

theorem accAt0_next (c : Dev nD) (t : Fin cfg0.N) (h0 : ¬t.val % 8 = 0) :
    accAt0 V c t.val t.isLt = k0_pay2 (iblk0 V c 0 t) (iblk0 V c 1 t)
      (accAt0 V c (t.val - 1) (Nat.lt_of_le_of_lt (Nat.sub_le _ _) t.isLt)) := by
  obtain ⟨n, hn⟩ := t
  cases n with
  | zero => exact absurd (Nat.zero_mod _) h0
  | succ n => exact congrArg _ (if_neg h0)

/-- The invariant before position `n`: before the first point the class's; afterwards the scratch at the running
    minimum the point before left, the other scoped buffers and the generator register at anything. -/
def PhiS0 (c : Dev nD) : (n : ℕ) → n ≤ cfg0.N → sProp 𝕄
  | 0, _ => Pipeline.ΦA spec0 c
  | n + 1, hn => iprop(owns (c : Thread nD τ) scM0 fullShare (accAt0 V c n hn) ∗ restS0 c ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(owns (c : Thread nD τ) scM0 fullShare (accAt0 V c n hn) ∗ restS0 c ∗ (∃ r, prngReg c r)) := rfl
theorem PhiS0_pos (c : Dev nD) (n : ℕ) (h : n ≤ cfg0.N) (hz : n ≠ 0) :
    PhiS0 V c n h = iprop(owns (c : Thread nD τ) scM0 fullShare (accAt0 V c (n - 1) (by omega)) ∗ restS0 c ∗ (∃ r, prngReg c r)) := by
  cases n with
  | zero => exact absurd rfl hz
  | succ n => rfl

/-- The proof data of call 0 on core `c`: the arrays as the call finds them; after the body each input's buffer at its
    block, the output's at the running minimum (consulted only where the block is written back: the last tile of a
    row block); the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => accAt0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = accAt0 V c t.val t.isLt := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))
/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' buffers hold their blocks; the position modulo 8 says which case the point is in;
    the invariant hands over the scratch at what the point before left (at anything at a row block's first tile) and
    takes it back at this point's running minimum; the output's buffer is left alone except at the last tile. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 128 := lt_of_lt_of_eq t.isLt (show cfg0.N = 128 from N_0)
  by_cases h1 : t.val % 8 = 7
  · have h0 : ¬t.val % 8 = 0 := by omega
    have hz : t.val ≠ 0 := by omega
    rw [show (dat0 V c).leavesExact 2 t = owns (c : Thread nD τ) (ms0_2 t) fullShare ((dat0 V c).after 2 t) from by
      unfold Dat.leavesExact; rw [liveAt0_2 t ((hcond0_1 t).mpr h1)], after0_2]
    rw [accAt0_next V c t h0, PhiS0_castSucc V c t, PhiS0_pos V c _ _ hz]
    iintro ⟨⟨HS, Hr, Hg⟩, Ho, ⟨%d0, H0⟩, ⟨%d1, H1⟩, ⟨%d2, H2⟩⟩
    iapply (run0_C c (grid0.coords t) (ms0_0 t) (hs0_0 t) (ms0_1 t) (hs0_1 t) (ms0_2 t) (hs0_2 t) scM0 (Memref.isWhole_whole _)
      (fun h => h0 ((hcond0_0 t).mp h)) ((hcond0_1 t).mpr h1) (iblk0 V c 0 t) (iblk0 V c 1 t) _ Set.univ _)
    isplitl [H0]; · iexact H0
    isplitl [H1]; · iexact H1
    isplitl [H2]; · iexists _; iexact H2
    isplitl [HS]; · iexact HS
    iintro ⟨H0, H1, H2, HS⟩
    isplitl [HS Hr Hg]
    · isplitl [HS]; · iexact HS
      isplitl [Hr]; · iexact Hr
      iexact Hg
    isplitl [Ho]; · iexact Ho
    isplitl [H0]; · iexact H0
    isplitl [H1]; · iexact H1
    iexact H2
  · have hnc1 : ¬cond0_1 (grid0.coords t) := fun h => h1 ((hcond0_1 t).mp h)
    rw [Dat.leavesExact_idle (dat0 V c) 2 t (idleAt0_2 t hnc1) (noFlush0_2 t hnc1)]
    by_cases h0 : t.val % 8 = 0
    · rw [accAt0_first V c t h0]
      by_cases hz : t.val = 0
      · rw [PhiS0_castSucc V c t, PhiS0_zero V c _ _ hz]
        iintro ⟨HΦ, Ho, ⟨%d0, H0⟩, ⟨%d1, H1⟩, ⟨%d2, H2⟩⟩
        ihave HΦ' := (PhiA0_split c) $$ HΦ
        icases HΦ' with ⟨HS, Hr, Hg⟩
        iapply (run0_A c (grid0.coords t) (ms0_0 t) (hs0_0 t) (ms0_1 t) (hs0_1 t) (ms0_2 t) (hs0_2 t) scM0 (Memref.isWhole_whole _)
          ((hcond0_0 t).mpr h0) hnc1 (iblk0 V c 0 t) (iblk0 V c 1 t) Set.univ _)
        isplitl [H0]; · iexact H0
        isplitl [H1]; · iexact H1
        isplitl [HS]; · iexact HS
        iintro ⟨H0, H1, HS⟩
        isplitl [HS Hr Hg]
        · isplitl [HS]; · iexact HS
          isplitl [Hr]; · iexact Hr
          iexact Hg
        isplitl [Ho]; · iexact Ho
        isplitl [H0]; · iexact H0
        isplitl [H1]; · iexact H1
        iexists _; iexact H2
      · rw [PhiS0_castSucc V c t, PhiS0_pos V c _ _ hz]
        iintro ⟨⟨HS, Hr, Hg⟩, Ho, ⟨%d0, H0⟩, ⟨%d1, H1⟩, ⟨%d2, H2⟩⟩
        iapply (run0_A c (grid0.coords t) (ms0_0 t) (hs0_0 t) (ms0_1 t) (hs0_1 t) (ms0_2 t) (hs0_2 t) scM0 (Memref.isWhole_whole _)
          ((hcond0_0 t).mpr h0) hnc1 (iblk0 V c 0 t) (iblk0 V c 1 t) Set.univ _)
        isplitl [H0]; · iexact H0
        isplitl [H1]; · iexact H1
        isplitl [HS]; · iexists _; iexact HS
        iintro ⟨H0, H1, HS⟩
        isplitl [HS Hr Hg]
        · isplitl [HS]; · iexact HS
          isplitl [Hr]; · iexact Hr
          iexact Hg
        isplitl [Ho]; · iexact Ho
        isplitl [H0]; · iexact H0
        isplitl [H1]; · iexact H1
        iexists _; iexact H2
    · have hz : t.val ≠ 0 := by omega
      rw [accAt0_next V c t h0, PhiS0_castSucc V c t, PhiS0_pos V c _ _ hz]
      iintro ⟨⟨HS, Hr, Hg⟩, Ho, ⟨%d0, H0⟩, ⟨%d1, H1⟩, ⟨%d2, H2⟩⟩
      iapply (run0_B c (grid0.coords t) (ms0_0 t) (hs0_0 t) (ms0_1 t) (hs0_1 t) (ms0_2 t) (hs0_2 t) scM0 (Memref.isWhole_whole _)
        (fun h => h0 ((hcond0_0 t).mp h)) hnc1 (iblk0 V c 0 t) (iblk0 V c 1 t) _ Set.univ _)
      isplitl [H0]; · iexact H0
      isplitl [H1]; · iexact H1
      isplitl [HS]; · iexact HS
      iintro ⟨H0, H1, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the call is the invariant before the first point, -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- and after the last point the invariant gives it back, the scratch's contents forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega)]
  iintro ⟨HS, Hr, Hg⟩
  iapply (PhiA0_join c)
  isplitl [HS]; · iexists _; iexact HS
  isplitl [Hr]; · iexact Hr
  iexact Hg

end

end Cert.KernelIdeal.Fr

end
-- ==== Proof.FrRun1.lean ====
import proofs.«140404_j28063316312805_1_alg».proof.Proof.FrShared

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Call 1's body, case by case

The body keeps a running minimum in its scratch: at a point whose second coordinate is 0 it first resets the scratch to
`+∞`; at every point it replaces the scratch by the new minimum (`k1_pay2` of the two staged blocks and the scratch);
at a point whose second coordinate is 7 it copies the scratch into the output block. Every load and store is of a whole
buffer, so each buffer ends at a named value. -/

set_option maxHeartbeats 1000000 in
/-- First tile of a row block: the scratch (at anything) ends at the minimum over the tile alone. -/
theorem run1_A (c : Dev nD) (i : grid1.Coords) (arg2 : Memref sig .tc .vmem S4x512x3 .f32) (harg2 : arg2.IsWhole) (arg3 : Memref sig .tc .vmem S4x3x1024 .f32) (harg3 : arg3.IsWhole) (arg4 : Memref sig .tc .vmem S4x512 .f32) (harg4 : arg4.IsWhole) (arg5 : Memref sig .tc .vmem S4x512 .f32) (harg5 : arg5.IsWhole) (hc0 : cond1_0 i) (hc1 : ¬cond1_1 i)
    (x0 : Vec F S4x512x3 .f32) (x1 : Vec F S4x3x1024 .f32) (E : Set ℕ) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1 ∗ owns (c : Thread nD τ) arg5 fullShare (k1_pay2 x0 x1 (k1_pay1 (F := F)))) -∗ K ⟨⟩))
      ⊢ wp frame (wpE (defs₀ (F := F)) Variants.none c none) E (cc1__row_min_sqdist_kernel i arg2 harg2 arg3 harg3 arg4 harg4 arg5 harg5) K := by
  simp only [cc1__row_min_sqdist_kernel_eq_skeleton]; unfold cc1__row_min_sqdist_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_run_names
  rw [read_writes_whole_cons _ _ hz_S4x512]
  simp only [readAt_whole harg2 hz_S4x512x3, readAt_whole harg3 hz_S4x3x1024, readCov_whole_cons (S := S4x512) arg5.view hz_S4x512]

set_option maxHeartbeats 1000000 in
/-- A middle tile: the scratch, at `xs`, ends at the minimum of `xs` and the tile's. -/
theorem run1_B (c : Dev nD) (i : grid1.Coords) (arg2 : Memref sig .tc .vmem S4x512x3 .f32) (harg2 : arg2.IsWhole) (arg3 : Memref sig .tc .vmem S4x3x1024 .f32) (harg3 : arg3.IsWhole) (arg4 : Memref sig .tc .vmem S4x512 .f32) (harg4 : arg4.IsWhole) (arg5 : Memref sig .tc .vmem S4x512 .f32) (harg5 : arg5.IsWhole) (hc0 : ¬cond1_0 i) (hc1 : ¬cond1_1 i)
    (x0 : Vec F S4x512x3 .f32) (x1 : Vec F S4x3x1024 .f32) (xs : Vec F S4x512 .f32) (E : Set ℕ) (K : PUnit → sProp 𝕄) :
    iprop(owns (c : Thread nD τ) arg2 fullShare x0 ∗ owns (c : Thread nD τ) arg3 fullShare x1 ∗ owns (c : Thread nD τ) arg5 fullShare xs
        ∗ (iprop(owns (c : Thread nD τ) arg2 fullShare x0 ∗ owns (c : Thread nD τ) arg3 fullShare x1 ∗ owns (c : Thread nD τ) arg5 fullShare (k1_pay2 x0 x1 xs)) -∗ K ⟨⟩))
      ⊢ wp frame (wpE (defs₀ (F := F)) Variants.none c none) E (cc1__row_min_sqdist_kernel i arg2 harg2 arg3 harg3 arg4 harg4 arg5 harg5) K := by
  simp only [cc1__row_min_sqdist_kernel_eq_skeleton]; unfold cc1__row_min_sqdist_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_run_names
  rw [read_writes_whole_cons _ _ hz_S4x512]
  simp only [readAt_whole harg2 hz_S4x512x3, readAt_whole harg3 hz_S4x3x1024, readAt_whole harg5 hz_S4x512]

set_option maxHeartbeats 1000000 in
/-- The last tile: as a middle tile, and the output block (at anything) ends at the scratch's new value. -/
theorem run1_C (c : Dev nD) (i : grid1.Coords) (arg2 : Memref sig .tc .vmem S4x512x3 .f32) (harg2 : arg2.IsWhole) (arg3 : Memref sig .tc .vmem S4x3x1024 .f32) (harg3 : arg3.IsWhole) (arg4 : Memref sig .tc .vmem S4x512 .f32) (harg4 : arg4.IsWhole) (arg5 : Memref sig .tc .vmem S4x512 .f32) (harg5 : arg5.IsWhole) (hc0 : ¬cond1_0 i) (hc1 : cond1_1 i)
    (x0 : Vec F S4x512x3 .f32) (x1 : Vec F S4x3x1024 .f32) (xs : Vec F S4x512 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k1_pay2 x0 x1 xs) ∗ owns (c : Thread nD τ) arg5 fullShare (k1_pay2 x0 x1 xs)) -∗ K ⟨⟩))
      ⊢ wp frame (wpE (defs₀ (F := F)) Variants.none c none) E (cc1__row_min_sqdist_kernel i arg2 harg2 arg3 harg3 arg4 harg4 arg5 harg5) K := by
  simp only [cc1__row_min_sqdist_kernel_eq_skeleton]; unfold cc1__row_min_sqdist_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    rw [read_writes_whole_cons _ _ hz_S4x512]
    simp only [readAt_whole harg2 hz_S4x512x3, readAt_whole harg3 hz_S4x3x1024, readAt_whole harg5 hz_S4x512, readCov_whole_cons (S := S4x512) arg5.view hz_S4x512]
  iexists _; isplitr
  swap; · iexact HS
  ipureintro
  sl_unfold_run_names
  rw [read_writes_whole_cons _ _ hz_S4x512]
  simp only [readAt_whole harg2 hz_S4x512x3, readAt_whole harg3 hz_S4x3x1024, readAt_whole harg5 hz_S4x512]

end Cert.KernelIdeal.Fr

end
-- ==== Proof.FrBody1.lean ====
import proofs.«140404_j28063316312805_1_alg».proof.Proof.FrRun1

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Call 1 point by point: the running minimum, the invariant, the proof data, the body obligation -/

/-- The class invariant (every scoped buffer that is no staging buffer of this call at some contents, and the generator
    register) with this call's scratch split off. -/
theorem PhiA1_split (c : Dev nD) :
    (Pipeline.ΦA spec1 c : sProp 𝕄) ⊢ iprop((∃ d, owns (c : Thread nD τ) scM1 fullShare d) ∗ restS1 c ∗ (∃ r, prngReg c r)) := by
  unfold Pipeline.ΦA restS1; rw [scopedRest1_eq]; simp only [scM1, owns_whole]
  iintro ⟨⟨R1, R2, R3, R4, R5, R6, R7, S⟩, Hg⟩
  isplitl [S]; · iexact S
  isplitr [Hg]
  · isplitl [R1]; · iexact R1
    isplitl [R2]; · iexact R2
    isplitl [R3]; · iexact R3
    isplitl [R4]; · iexact R4
    isplitl [R5]; · iexact R5
    isplitl [R6]; · iexact R6
    iexact R7
  iexact Hg

theorem PhiA1_join (c : Dev nD) :
    iprop((∃ d, owns (c : Thread nD τ) scM1 fullShare d) ∗ restS1 c ∗ (∃ r, prngReg c r)) ⊢ (Pipeline.ΦA spec1 c : sProp 𝕄) := by
  unfold Pipeline.ΦA restS1; rw [scopedRest1_eq]; simp only [scM1, owns_whole]
  iintro ⟨S, ⟨R1, R2, R3, R4, R5, R6, R7⟩, Hg⟩
  isplitr [Hg]
  · isplitl [R1]; · iexact R1
    isplitl [R2]; · iexact R2
    isplitl [R3]; · iexact R3
    isplitl [R4]; · iexact R4
    isplitl [R5]; · iexact R5
    isplitl [R6]; · iexact R6
    isplitl [R7]; · iexact R7
    iexact S
  iexact Hg

section
variable (V : (c : Dev nD) → (b : Ref sig .tc) → Buf (Elt F) ((c : Thread nD τ).loc b))

/-- THE RUNNING MINIMUM after the point at position `n` (row-major: row block `n / 8`, tile `n % 8`): the new minimum
    (`k1_pay2`) of the point's two blocks and of `+∞` at a row block's first tile, of what the point before left
    otherwise. -/
def accAt1 (c : Dev nD) : (n : ℕ) → n < cfg1.N → Vec F S4x512 .f32
  | 0, hn => k1_pay2 (iblk1 V c 0 ⟨0, hn⟩) (iblk1 V c 1 ⟨0, hn⟩) (k1_pay1 (F := F))
  | n + 1, hn => k1_pay2 (iblk1 V c 0 ⟨n + 1, hn⟩) (iblk1 V c 1 ⟨n + 1, hn⟩)
      (if (n + 1) % 8 = 0 then (k1_pay1 (F := F)) else accAt1 c n (Nat.lt_of_succ_lt hn))

theorem accAt1_first (c : Dev nD) (t : Fin cfg1.N) (h0 : t.val % 8 = 0) :
    accAt1 V c t.val t.isLt = k1_pay2 (iblk1 V c 0 t) (iblk1 V c 1 t) (k1_pay1 (F := F)) := by
  obtain ⟨n, hn⟩ := t
  cases n with
  | zero => rfl
  | succ n => exact congrArg _ (if_pos h0)

theorem accAt1_next (c : Dev nD) (t : Fin cfg1.N) (h0 : ¬t.val % 8 = 0) :
    accAt1 V c t.val t.isLt = k1_pay2 (iblk1 V c 0 t) (iblk1 V c 1 t)
      (accAt1 V c (t.val - 1) (Nat.lt_of_le_of_lt (Nat.sub_le _ _) t.isLt)) := by
  obtain ⟨n, hn⟩ := t
  cases n with
  | zero => exact absurd (Nat.zero_mod _) h0
  | succ n => exact congrArg _ (if_neg h0)

/-- The invariant before position `n`: before the first point the class's; afterwards the scratch at the running
    minimum the point before left, the other scoped buffers and the generator register at anything. -/
def PhiS1 (c : Dev nD) : (n : ℕ) → n ≤ cfg1.N → sProp 𝕄
  | 0, _ => Pipeline.ΦA spec1 c
  | n + 1, hn => iprop(owns (c : Thread nD τ) scM1 fullShare (accAt1 V c n hn) ∗ restS1 c ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1 fullShare (accAt1 V c n hn) ∗ restS1 c ∗ (∃ r, prngReg c r)) := rfl
theorem PhiS1_pos (c : Dev nD) (n : ℕ) (h : n ≤ cfg1.N) (hz : n ≠ 0) :
    PhiS1 V c n h = iprop(owns (c : Thread nD τ) scM1 fullShare (accAt1 V c (n - 1) (by omega)) ∗ restS1 c ∗ (∃ r, prngReg c r)) := by
  cases n with
  | zero => exact absurd rfl hz
  | succ n => rfl

/-- The proof data of call 1 on core `c`: the arrays as the call finds them; after the body each input's buffer at its
    block, the output's at the running minimum (consulted only where the block is written back: the last tile of a
    row block); the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt1 V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))
/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks; the position modulo 8 says which case the point is in;
    the invariant hands over the scratch at what the point before left (at anything at a row block's first tile) and
    takes it back at this point's running minimum; the output's buffer is left alone except at the last tile. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 128 := lt_of_lt_of_eq t.isLt (show cfg1.N = 128 from N_1)
  by_cases h1 : t.val % 8 = 7
  · have h0 : ¬t.val % 8 = 0 := by omega
    have hz : t.val ≠ 0 := by omega
    rw [show (dat1 V c).leavesExact 2 t = owns (c : Thread nD τ) (ms1_2 t) fullShare ((dat1 V c).after 2 t) from by
      unfold Dat.leavesExact; rw [liveAt1_2 t ((hcond1_1 t).mpr h1)], after1_2]
    rw [accAt1_next V c t h0, PhiS1_castSucc V c t, PhiS1_pos V c _ _ hz]
    iintro ⟨⟨HS, Hr, Hg⟩, Ho, ⟨%d0, H0⟩, ⟨%d1, H1⟩, ⟨%d2, H2⟩⟩
    iapply (run1_C c (grid1.coords t) (ms1_0 t) (hs1_0 t) (ms1_1 t) (hs1_1 t) (ms1_2 t) (hs1_2 t) scM1 (Memref.isWhole_whole _)
      (fun h => h0 ((hcond1_0 t).mp h)) ((hcond1_1 t).mpr h1) (iblk1 V c 0 t) (iblk1 V c 1 t) _ Set.univ _)
    isplitl [H0]; · iexact H0
    isplitl [H1]; · iexact H1
    isplitl [H2]; · iexists _; iexact H2
    isplitl [HS]; · iexact HS
    iintro ⟨H0, H1, H2, HS⟩
    isplitl [HS Hr Hg]
    · isplitl [HS]; · iexact HS
      isplitl [Hr]; · iexact Hr
      iexact Hg
    isplitl [Ho]; · iexact Ho
    isplitl [H0]; · iexact H0
    isplitl [H1]; · iexact H1
    iexact H2
  · have hnc1 : ¬cond1_1 (grid1.coords t) := fun h => h1 ((hcond1_1 t).mp h)
    rw [Dat.leavesExact_idle (dat1 V c) 2 t (idleAt1_2 t hnc1) (noFlush1_2 t hnc1)]
    by_cases h0 : t.val % 8 = 0
    · rw [accAt1_first V c t h0]
      by_cases hz : t.val = 0
      · rw [PhiS1_castSucc V c t, PhiS1_zero V c _ _ hz]
        iintro ⟨HΦ, Ho, ⟨%d0, H0⟩, ⟨%d1, H1⟩, ⟨%d2, H2⟩⟩
        ihave HΦ' := (PhiA1_split c) $$ HΦ
        icases HΦ' with ⟨HS, Hr, Hg⟩
        iapply (run1_A c (grid1.coords t) (ms1_0 t) (hs1_0 t) (ms1_1 t) (hs1_1 t) (ms1_2 t) (hs1_2 t) scM1 (Memref.isWhole_whole _)
          ((hcond1_0 t).mpr h0) hnc1 (iblk1 V c 0 t) (iblk1 V c 1 t) Set.univ _)
        isplitl [H0]; · iexact H0
        isplitl [H1]; · iexact H1
        isplitl [HS]; · iexact HS
        iintro ⟨H0, H1, HS⟩
        isplitl [HS Hr Hg]
        · isplitl [HS]; · iexact HS
          isplitl [Hr]; · iexact Hr
          iexact Hg
        isplitl [Ho]; · iexact Ho
        isplitl [H0]; · iexact H0
        isplitl [H1]; · iexact H1
        iexists _; iexact H2
      · rw [PhiS1_castSucc V c t, PhiS1_pos V c _ _ hz]
        iintro ⟨⟨HS, Hr, Hg⟩, Ho, ⟨%d0, H0⟩, ⟨%d1, H1⟩, ⟨%d2, H2⟩⟩
        iapply (run1_A c (grid1.coords t) (ms1_0 t) (hs1_0 t) (ms1_1 t) (hs1_1 t) (ms1_2 t) (hs1_2 t) scM1 (Memref.isWhole_whole _)
          ((hcond1_0 t).mpr h0) hnc1 (iblk1 V c 0 t) (iblk1 V c 1 t) Set.univ _)
        isplitl [H0]; · iexact H0
        isplitl [H1]; · iexact H1
        isplitl [HS]; · iexists _; iexact HS
        iintro ⟨H0, H1, HS⟩
        isplitl [HS Hr Hg]
        · isplitl [HS]; · iexact HS
          isplitl [Hr]; · iexact Hr
          iexact Hg
        isplitl [Ho]; · iexact Ho
        isplitl [H0]; · iexact H0
        isplitl [H1]; · iexact H1
        iexists _; iexact H2
    · have hz : t.val ≠ 0 := by omega
      rw [accAt1_next V c t h0, PhiS1_castSucc V c t, PhiS1_pos V c _ _ hz]
      iintro ⟨⟨HS, Hr, Hg⟩, Ho, ⟨%d0, H0⟩, ⟨%d1, H1⟩, ⟨%d2, H2⟩⟩
      iapply (run1_B c (grid1.coords t) (ms1_0 t) (hs1_0 t) (ms1_1 t) (hs1_1 t) (ms1_2 t) (hs1_2 t) scM1 (Memref.isWhole_whole _)
        (fun h => h0 ((hcond1_0 t).mp h)) hnc1 (iblk1 V c 0 t) (iblk1 V c 1 t) _ Set.univ _)
      isplitl [H0]; · iexact H0
      isplitl [H1]; · iexact H1
      isplitl [HS]; · iexact HS
      iintro ⟨H0, H1, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first point, -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- and after the last point the invariant gives it back, the scratch's contents forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega)]
  iintro ⟨HS, Hr, Hg⟩
  iapply (PhiA1_join c)
  isplitl [HS]; · iexists _; iexact HS
  isplitl [Hr]; · iexact Hr
  iexact Hg

end

end Cert.KernelIdeal.Fr

end
-- ==== Proof.FrRegions.lean ====
import proofs.«140404_j28063316312805_1_alg».proof.Proof.FrBody0
import proofs.«140404_j28063316312805_1_alg».proof.Proof.FrBody1
import proofs.«140404_j28063316312805_1_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The run: @main's five segments from the launch to the return

The buffers' contents at each segment boundary are a fold from the launch memory: a host stretch applies its operations;
a call leaves its arrays at what its write-backs leave (the inputs as entered, the output block by block at the running
minimum's last value) and every other buffer as entered. -/

variable (m : (ℓ : Loc nD τ sig) → Buf (Elt F) ℓ)

/-- Core `c`'s buffers at launch, -/
abbrev W0 : Dev nD → Valuation τ sig (Elt F) := fun c b => m (c, b)
/-- after the first transpose (call 0's entry), -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- at call 0's exit, -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
/-- after the second transpose (call 1's entry), -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- at call 1's exit, -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)
/-- and at the return, after the two means and their sum. -/
abbrev W5 : Dev nD → Valuation τ sig (Elt F) := fun c => StableHlo.after hostOps2 (W4 m c)

/-! ## The arguments end as launched -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (r := main_arg0) (by decide)
    _ = W3 m c (Proc.devRef .tc main_arg0) := W4_of_ne m c main_arg0 (by decide)
    _ = W2 m c (Proc.devRef .tc main_arg0) := StableHlo.after_of_writes_sub hostOps1 _ hostOps1_writes (r := main_arg0) (by decide)
    _ = W1 m c (Proc.devRef .tc main_arg0) := (W2_arr m c 0).trans (((dat0 (U1 m) c).arrAt_in 0 rfl _).trans (A_eq0 (U1 m) c 0))
    _ = W0 m c (Proc.devRef .tc main_arg0) := StableHlo.after_of_writes_sub hostOps0 _ hostOps0_writes (r := main_arg0) (by decide)
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (r := main_arg1) (by decide)
    _ = W3 m c (Proc.devRef .tc main_arg1) := (W4_arr m c 0).trans (((dat1 (U3 m) c).arrAt_in 0 rfl _).trans (A_eq1 (U3 m) c 0))
    _ = W2 m c (Proc.devRef .tc main_arg1) := StableHlo.after_of_writes_sub hostOps1 _ hostOps1_writes (r := main_arg1) (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl

/-! ## The proof data family and the thread state -/

/-- Each call's proof data at its entry contents — a literal match on the call's number. -/
def pd : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
abbrev 𝒱₀ : Variants := Variants.none
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the return's contents, the generator register. -/
abbrev Tₙ (c : Dev nD) : sProp 𝕄 := iprop(StableHlo.held (c : Thread nD τ) (Pipeline.ucRefs τ sig) (W5 m c) ∗ ∃ r, prngReg c r)

-- a library lemma stated over the pinned configuration unifies with the printed one only when unification may unfold
-- plain definitions in a metavariable's type
set_option backward.isDefEq.respectTransparency.types false in
/-- CALL 0 as a segment: entered from every unscoped buffer at `W1`, left at `W2`. Its arrays are split
    out of the unscoped buffers and put back at their exit contents; the generator register and the scoped buffers
    go into the invariant and come back; nothing is owed; the kernel has no semaphore of its own. -/
def reg0 : Pipeline.RegionSeg (pcfgs (F := F)) adm (pd m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pd m) launch0.win launch0.arr_whole c
      ((pd m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 0 c).Φ 0 = Pipeline.ΦA spec0 c from rfl]; unfold Pipeline.ΦA
    iintro ⟨Hp, -, Hr⟩
    isplitl [Hr]; · iexact Hr
    iexact Hp
  hout c := by
    refine (hout0 (U1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pd m) ((pd m 0 c).share_full fun _ => rfl)
      (U1 m c) (U2 m c) ((pd m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- CALL 1 as a segment: entered from every unscoped buffer at `W3`, left at `W4`. Its arrays are split
    out of the unscoped buffers and put back at their exit contents; the generator register and the scoped buffers
    go into the invariant and come back; nothing is owed; the kernel has no semaphore of its own. -/
def reg1 : Pipeline.RegionSeg (pcfgs (F := F)) adm (pd m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pd m) launch1.win launch1.arr_whole c
      ((pd m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pd m 1 c).Φ 0 = Pipeline.ΦA spec1 c from rfl]; unfold Pipeline.ΦA
    iintro ⟨Hp, -, Hr⟩
    isplitl [Hr]; · iexact Hr
    iexact Hp
  hout c := by
    refine (hout1 (U3 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pd m) ((pd m 1 c).share_full fun _ => rfl)
      (U3 m c) (U4 m c) ((pd m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's five segments in order. -/
abbrev segList : List (Pipeline.Seg (pcfgs (F := F)) adm (pd m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
theorem main_run (c : Dev nD) : main (F := F) c = Pipeline.Seg.run (segList m) := (main_chain c).trans (by chain_rfl)

variable (ρ : Dev nD → PrngReg)

set_option backward.isDefEq.respectTransparency.types false in
/-- THE RUN. From any memory with zero counters every weakly fair execution of @main terminates, faulting nowhere, and
    every final memory holds every unscoped buffer at the return's contents `W5`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pd m) () cellOf_inj emb₁ defs₀ 𝒱₀ L lv m ρ main (segList m)
    (fun c Q => by rw [main_run m c])
    (by simp only [segList, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME at any `F`: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c _ (mem_uc main_arg0 (by decide))).trans (W5_main_arg0 m c),
    (h c _ (mem_uc main_arg1 (by decide))).trans (W5_main_arg1 m c)⟩) (run_main m ρ)

end Cert.KernelIdeal.Fr

end
-- ==== Proof.FrArr0.lean ====
import proofs.«140404_j28063316312805_1_alg».proof.Proof.FrBody0
import Idealize.ShloMosaic.Lib.Pipeline.Value
import Idealize.ShloMosaic.Lib.ValueIdx

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Call 0's output array after the call

Row block `q` of the output (rows `512·q … 512·q + 511`) is written back once, after the row block's last tile, the point
at position `8·q + 7`, and holds the running minimum there. The sixteen row blocks tile the array. -/

open Idealize.ShloMosaic.ValueIdx

section
variable (V : (c : Dev nD) → (b : Ref sig .tc) → Buf (Elt F) ((c : Thread nD τ).loc b))

theorem accAt0_congr (c : Dev nD) {n n' : ℕ} (e : n = n') (h : n < cfg0.N) (h' : n' < cfg0.N) :
    accAt0 V c n h = accAt0 V c n' h' := by subst e; rfl

theorem lastPoint0_lt (i : S4x8192.Idx) : 8 * ((i 1).val / 512) + 7 < cfg0.N := by
  have h : (i 1).val < 8192 := (i 1).isLt
  show _ < grid0.N
  rw [N_0]; omega

/-- The output array as ONE function of the entry contents: at (b, n) the running minimum after the last tile of
    row block `n / 512`, read at row `n % 512`. -/
def outArr0 (c : Dev nD) : S4x8192.Idx → Elt F .f32 := fun i =>
  accAt0 V c (8 * ((i 1).val / 512) + 7) (lastPoint0_lt i)
    (ix2 (⟨(i 0).val, (i 0).isLt⟩ : Fin 4) (⟨(i 1).val % 512, Nat.mod_lt _ (by decide)⟩ : Fin 512))

/-- The output window's index map over the grid: block (0, t / 8). -/
theorem idx_out0 : ∀ t : Fin cfg0.N, win0_2.index t (0 : Fin 2) = 0 ∧ win0_2.index t (1 : Fin 2) = t.val / 8 :=
  (by decide +kernel : ∀ t : Fin grid0.N, win0_2.index t (0 : Fin 2) = 0 ∧ win0_2.index t (1 : Fin 2) = t.val / 8)

/-- `outArr` at an index of row block `t / 8`, for a last-tile point `t`, is the running minimum after `t`. -/
theorem outArr0_at (c : Dev nD) (t : Fin cfg0.N) (h7 : t.val % 8 = 7) (i : S4x8192.Idx) (j : S4x512.Idx)
    (E0 : (i 0).val = (j 0).val) (E1 : (i 1).val = (t.val / 8) * 512 + (j 1).val) :
    outArr0 V c i = accAt0 V c t.val t.isLt j := by
  have hj1 : (j 1).val < 512 := (j 1).isLt
  have hn : 8 * ((i 1).val / 512) + 7 = t.val := by rw [E1]; omega
  unfold outArr0
  rw [accAt0_congr V c hn _ t.isLt]
  refine congrArg _ (funext fun a => Fin.ext ?_)
  match a with
  | ⟨0, _⟩ => exact E0
  | ⟨1, _⟩ => show (i 1).val % 512 = (j 1).val; rw [E1]; omega

/-- What a last-tile point writes back is its block of `outArr`. -/
theorem flushed0_eq (c : Dev nD) (t : Fin cfg0.N) (hf : (cfg0.win 2).flush t = true) :
    (dat0 V c).flushed 2 t = ((cfg0.win 2).blk t).view.read (Elt F) (outArr0 V c) := by
  have h7 : t.val % 8 = 7 := (flush0_2 t).mp hf
  obtain ⟨e0, e1⟩ := idx_out0 t
  show (cfg0.win 2).cut (grid0.coords t) ((dat0 V c).after 2 t) = _
  rw [after0_2]
  funext j
  show accAt0 V c t.val t.isLt j = outArr0 V c (((cfg0.win 2).blk t).view.emb j)
  have hj0 : (j 0).val < 4 := (j 0).isLt
  have hj1 : (j 1).val < 512 := (j 1).isLt
  refine (outArr0_at V c t h7 _ j ?_ ?_).symm
  · show win0_2.index t (0 : Fin 2) * 4 + 1 * (j 0).val = (j 0).val; rw [e0]; omega
  · show win0_2.index t (1 : Fin 2) * 512 + 1 * (j 1).val = (t.val / 8) * 512 + (j 1).val; rw [e1]; omega

/-- An index of the array is in point `t`'s block iff each coordinate is in the block's range on its axis. -/
theorem mem_blk0 (t : Fin cfg0.N) (i : S4x8192.Idx) :
    i ∈ ((cfg0.win 2).blk t).view.set ↔ ∀ a : Fin 2, win0_2.index t a * S4x512.size a ≤ (i a).val ∧ (i a).val < win0_2.index t a * S4x512.size a + S4x512.size a := by
  show i ∈ ((View.whole main_v1).slice (win0_2.rect t)).set ↔ _
  rw [View.set_slice_whole, Rect.mem_set_unit]
  exact Iff.rfl

/-- Every index lies in the block some last-tile point writes back: row `n` in that of the point `8·(n / 512) + 7`. -/
theorem cover0 (i : S4x8192.Idx) : ∃ t : Fin cfg0.N, (cfg0.win 2).flush t = true ∧ i ∈ ((cfg0.win 2).blk t).view.set := by
  have hi0 : (i 0).val < 4 := (i 0).isLt
  have hi1 : (i 1).val < 8192 := (i 1).isLt
  refine ⟨⟨8 * ((i 1).val / 512) + 7, lastPoint0_lt i⟩, (flush0_2 _).mpr (by show (8 * ((i 1).val / 512) + 7) % 8 = 7; omega), ?_⟩
  obtain ⟨e0, e1⟩ := idx_out0 ⟨8 * ((i 1).val / 512) + 7, lastPoint0_lt i⟩
  have e1' : win0_2.index ⟨8 * ((i 1).val / 512) + 7, lastPoint0_lt i⟩ (1 : Fin 2) = (i 1).val / 512 := by rw [e1]; show (8 * ((i 1).val / 512) + 7) / 8 = _; omega
  rw [mem_blk0]
  intro a
  match a with
  | ⟨0, _⟩ => show win0_2.index _ (0 : Fin 2) * 4 ≤ (i 0).val ∧ (i 0).val < win0_2.index _ (0 : Fin 2) * 4 + 4; rw [e0]; omega
  | ⟨1, _⟩ => show win0_2.index _ (1 : Fin 2) * 512 ≤ (i 1).val ∧ (i 1).val < win0_2.index _ (1 : Fin 2) * 512 + 512; rw [e1']; omega

/-- THE OUTPUT ARRAY after the call is `outArr`. -/
theorem final0 (c : Dev nD) : (dat0 V c).arrAt 2 cfg0.N = outArr0 V c :=
  (dat0 V c).arrAt_eq_of_cover 2 (outArr0 V c) (flushed0_eq V c) (cover0)

end

end Cert.KernelIdeal.Fr

end
-- ==== Proof.FrArr1.lean ====
import proofs.«140404_j28063316312805_1_alg».proof.Proof.FrBody1
import Idealize.ShloMosaic.Lib.Pipeline.Value
import Idealize.ShloMosaic.Lib.ValueIdx

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Call 1's output array after the call

Row block `q` of the output (rows `512·q … 512·q + 511`) is written back once, after the row block's last tile, the point
at position `8·q + 7`, and holds the running minimum there. The sixteen row blocks tile the array. -/

open Idealize.ShloMosaic.ValueIdx

section
variable (V : (c : Dev nD) → (b : Ref sig .tc) → Buf (Elt F) ((c : Thread nD τ).loc b))

theorem accAt1_congr (c : Dev nD) {n n' : ℕ} (e : n = n') (h : n < cfg1.N) (h' : n' < cfg1.N) :
    accAt1 V c n h = accAt1 V c n' h' := by subst e; rfl

theorem lastPoint1_lt (i : S4x8192.Idx) : 8 * ((i 1).val / 512) + 7 < cfg1.N := by
  have h : (i 1).val < 8192 := (i 1).isLt
  show _ < grid1.N
  rw [N_1]; omega

/-- The output array as ONE function of the entry contents: at (b, n) the running minimum after the last tile of
    row block `n / 512`, read at row `n % 512`. -/
def outArr1 (c : Dev nD) : S4x8192.Idx → Elt F .f32 := fun i =>
  accAt1 V c (8 * ((i 1).val / 512) + 7) (lastPoint1_lt i)
    (ix2 (⟨(i 0).val, (i 0).isLt⟩ : Fin 4) (⟨(i 1).val % 512, Nat.mod_lt _ (by decide)⟩ : Fin 512))

/-- The output window's index map over the grid: block (0, t / 8). -/
theorem idx_out1 : ∀ t : Fin cfg1.N, win1_2.index t (0 : Fin 2) = 0 ∧ win1_2.index t (1 : Fin 2) = t.val / 8 :=
  (by decide +kernel : ∀ t : Fin grid1.N, win1_2.index t (0 : Fin 2) = 0 ∧ win1_2.index t (1 : Fin 2) = t.val / 8)

/-- `outArr` at an index of row block `t / 8`, for a last-tile point `t`, is the running minimum after `t`. -/
theorem outArr1_at (c : Dev nD) (t : Fin cfg1.N) (h7 : t.val % 8 = 7) (i : S4x8192.Idx) (j : S4x512.Idx)
    (E0 : (i 0).val = (j 0).val) (E1 : (i 1).val = (t.val / 8) * 512 + (j 1).val) :
    outArr1 V c i = accAt1 V c t.val t.isLt j := by
  have hj1 : (j 1).val < 512 := (j 1).isLt
  have hn : 8 * ((i 1).val / 512) + 7 = t.val := by rw [E1]; omega
  unfold outArr1
  rw [accAt1_congr V c hn _ t.isLt]
  refine congrArg _ (funext fun a => Fin.ext ?_)
  match a with
  | ⟨0, _⟩ => exact E0
  | ⟨1, _⟩ => show (i 1).val % 512 = (j 1).val; rw [E1]; omega

/-- What a last-tile point writes back is its block of `outArr`. -/
theorem flushed1_eq (c : Dev nD) (t : Fin cfg1.N) (hf : (cfg1.win 2).flush t = true) :
    (dat1 V c).flushed 2 t = ((cfg1.win 2).blk t).view.read (Elt F) (outArr1 V c) := by
  have h7 : t.val % 8 = 7 := (flush1_2 t).mp hf
  obtain ⟨e0, e1⟩ := idx_out1 t
  show (cfg1.win 2).cut (grid1.coords t) ((dat1 V c).after 2 t) = _
  rw [after1_2]
  funext j
  show accAt1 V c t.val t.isLt j = outArr1 V c (((cfg1.win 2).blk t).view.emb j)
  have hj0 : (j 0).val < 4 := (j 0).isLt
  have hj1 : (j 1).val < 512 := (j 1).isLt
  refine (outArr1_at V c t h7 _ j ?_ ?_).symm
  · show win1_2.index t (0 : Fin 2) * 4 + 1 * (j 0).val = (j 0).val; rw [e0]; omega
  · show win1_2.index t (1 : Fin 2) * 512 + 1 * (j 1).val = (t.val / 8) * 512 + (j 1).val; rw [e1]; omega

/-- An index of the array is in point `t`'s block iff each coordinate is in the block's range on its axis. -/
theorem mem_blk1 (t : Fin cfg1.N) (i : S4x8192.Idx) :
    i ∈ ((cfg1.win 2).blk t).view.set ↔ ∀ a : Fin 2, win1_2.index t a * S4x512.size a ≤ (i a).val ∧ (i a).val < win1_2.index t a * S4x512.size a + S4x512.size a := by
  show i ∈ ((View.whole main_v3).slice (win1_2.rect t)).set ↔ _
  rw [View.set_slice_whole, Rect.mem_set_unit]
  exact Iff.rfl

/-- Every index lies in the block some last-tile point writes back: row `n` in that of the point `8·(n / 512) + 7`. -/
theorem cover1 (i : S4x8192.Idx) : ∃ t : Fin cfg1.N, (cfg1.win 2).flush t = true ∧ i ∈ ((cfg1.win 2).blk t).view.set := by
  have hi0 : (i 0).val < 4 := (i 0).isLt
  have hi1 : (i 1).val < 8192 := (i 1).isLt
  refine ⟨⟨8 * ((i 1).val / 512) + 7, lastPoint1_lt i⟩, (flush1_2 _).mpr (by show (8 * ((i 1).val / 512) + 7) % 8 = 7; omega), ?_⟩
  obtain ⟨e0, e1⟩ := idx_out1 ⟨8 * ((i 1).val / 512) + 7, lastPoint1_lt i⟩
  have e1' : win1_2.index ⟨8 * ((i 1).val / 512) + 7, lastPoint1_lt i⟩ (1 : Fin 2) = (i 1).val / 512 := by rw [e1]; show (8 * ((i 1).val / 512) + 7) / 8 = _; omega
  rw [mem_blk1]
  intro a
  match a with
  | ⟨0, _⟩ => show win1_2.index _ (0 : Fin 2) * 4 ≤ (i 0).val ∧ (i 0).val < win1_2.index _ (0 : Fin 2) * 4 + 4; rw [e0]; omega
  | ⟨1, _⟩ => show win1_2.index _ (1 : Fin 2) * 512 ≤ (i 1).val ∧ (i 1).val < win1_2.index _ (1 : Fin 2) * 512 + 512; rw [e1']; omega

/-- THE OUTPUT ARRAY after the call is `outArr`. -/
theorem final1 (c : Dev nD) : (dat1 V c).arrAt 2 cfg1.N = outArr1 V c :=
  (dat1 V c).arrAt_eq_of_cover 2 (outArr1 V c) (flushed1_eq V c) (cover1)

end

end Cert.KernelIdeal.Fr

end
-- ==== Proof.PayloadValue0.lean ====
/-
  The kernel body's batched product read at an index: for each batch `b`, row `r` of the left block and column `j` of the
  right block, the product into the zero accumulator is the sum over the three coordinates `c` of
  `A (b, r, c) · B (b, c, j)`.
-/
import proofs.«140404_j28063316312805_1_alg».proof.Proof.Gen.KernelIdeal.Skeleton
import Idealize.ShloMosaic.Lib.ValueIdx
import Idealize.ShloMosaic.PureOps.Ideal.Laws

noncomputable section

namespace Cert.KernelIdeal.PayloadValue

open Idealize.ShloMosaic Idealize.ShloMosaic.ValueIdx
open Cert.KernelIdeal.Gen

/-- The dimension numbers of the body's product: batch axis 0, the left operand's axis 2 contracted with the right
    operand's axis 1. -/
abbrev D : DotDims S4x512x3 S4x3x1024 S4x512x1024 := dot_S4x512x3_S4x3x1024_S4x512x1024_2_1_1_2_0_0

theorem lhs_0 (i : S4x512x1024.Idx) (q : D.contr.Idx) : (D.lhsIdx i q 0).val = (i 0).val := by
  unfold DotDims.lhsIdx
  rw [dif_pos (show (0 : Fin S4x512x3.rank) ∈ D.lhsBatch by decide)]
  rfl
theorem lhs_1 (i : S4x512x1024.Idx) (q : D.contr.Idx) : (D.lhsIdx i q 1).val = (i 1).val := by
  unfold DotDims.lhsIdx
  rw [dif_neg (show ¬(1 : Fin S4x512x3.rank) ∈ D.lhsBatch by decide),
    dif_pos (show (1 : Fin S4x512x3.rank) ∈ D.lhsNonContracting by decide)]
  rfl
theorem lhs_2 (i : S4x512x1024.Idx) (q : D.contr.Idx) : (D.lhsIdx i q 2).val = (q ⟨0, by decide⟩).val :=
  D.lhsIdx_val_of_single rfl i q
theorem rhs_0 (i : S4x512x1024.Idx) (q : D.contr.Idx) : (D.rhsIdx i q 0).val = (i 0).val := by
  unfold DotDims.rhsIdx
  rw [dif_pos (show (0 : Fin S4x3x1024.rank) ∈ D.rhsBatch by decide)]
  rfl
theorem rhs_1 (i : S4x512x1024.Idx) (q : D.contr.Idx) : (D.rhsIdx i q 1).val = (q ⟨0, by decide⟩).val :=
  D.rhsIdx_val_of_single rfl i q
theorem rhs_2 (i : S4x512x1024.Idx) (q : D.contr.Idx) : (D.rhsIdx i q 2).val = (i 2).val := by
  unfold DotDims.rhsIdx
  rw [dif_neg (show ¬(2 : Fin S4x3x1024.rank) ∈ D.rhsBatch by decide),
    dif_pos (show (2 : Fin S4x3x1024.rank) ∈ D.rhsNonContracting by decide)]
  rfl

/-- The product into the zero accumulator at `(b, r, j)`: the sum over `c` of `A (b, r, c) · B (b, c, j)`. -/
theorem matmul_zero_apply (A : FVec Ideal S4x512x3 .f32) (B : FVec Ideal S4x3x1024 .f32) (b : Fin 4) (r : Fin 512)
    (j : Fin 1024) :
    matmul D (some .fp32) A B (constant S4x512x1024 .f32 0x00000000#32) (ix3 b r j)
      = ∑ c : Fin 3, A (ix3 b r c) * B (ix3 b c j) := by
  simp only [matmul]
  rw [Ideal.matmul_constant_zero_apply, ← Equiv.sum_comp (contrEquiv1 D 3 rfl rfl).symm]
  refine Finset.sum_congr rfl fun k _ => ?_
  have hk := contrEquiv1_symm_val D 3 rfl rfl k
  have el : D.lhsIdx (ix3 b r j) ((contrEquiv1 D 3 rfl rfl).symm k) = ix3 b r k := funext fun a => Fin.ext (by
    match a with
    | ⟨0, _⟩ => exact lhs_0 _ _
    | ⟨1, _⟩ => exact lhs_1 _ _
    | ⟨2, _⟩ => exact (lhs_2 _ _).trans hk)
  have er : D.rhsIdx (ix3 b r j) ((contrEquiv1 D 3 rfl rfl).symm k) = ix3 b k j := funext fun a => Fin.ext (by
    match a with
    | ⟨0, _⟩ => exact rhs_0 _ _
    | ⟨1, _⟩ => exact (rhs_1 _ _).trans hk
    | ⟨2, _⟩ => exact rhs_2 _ _)
  rw [el, er]

end Cert.KernelIdeal.PayloadValue

end
-- ==== Proof.LibKeepdims.lean ====
/-
  Layout operations of a row reduction kept as a unit axis ("keepdims"), read at an index by coordinates, and the two
  row reductions over the last axis of a rank-3 vector read at an index.

  A block [a, 1, b, c] viewed [a, b, c]; a reduced [a, b] viewed as the column [a, b, 1]; that column broadcast along
  the last axis to [a, b, n]; the sum and the maximum over the last axis of [a, b, n] at (i, j), as the sum and the
  fold of `max` over k of the entries (i, j, k).
-/
import Idealize.ShloMosaic.Lib.Pipeline.Value
import Idealize.ShloMosaic.Lib.ValueIdx
import Idealize.ShloMosaic.Lib.ValueLayout
import Idealize.ShloMosaic.PureOps.Ideal.Laws

noncomputable section

namespace Keepdims

open Idealize.ShloMosaic Idealize.ShloMosaic.ValueIdx

variable {α : Type}

/-- An `[a, 1, b, c]` array cast to `[a, b, c]` reads, at `(i, j, k)`, the operand at `(i, 0, j, k)`. -/
theorem shapeCast_a1bc_abc_apply {a b c : ℕ} (x : (⟨4, ![a, 1, b, c]⟩ : Shape).Idx → α)
    (h : (⟨4, ![a, 1, b, c]⟩ : Shape).ShapeCasts ⟨3, ![a, b, c]⟩) (i : Fin a) (j : Fin b) (k : Fin c) :
    shapeCast ⟨3, ![a, b, c]⟩ x h (ix3 i j k) = x (ix4 i (0 : Fin 1) j k) :=
  shapeCast_apply x h _ _ (by
    rw [Shape.rowMajor_val_four, Shape.rowMajor_val_three]
    show ((i.val * 1 + 0) * b + j.val) * c + k.val = (i.val * b + j.val) * c + k.val
    rw [Nat.mul_one, Nat.add_zero])

/-- An `[a, b]` array cast to the column `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A column `[a, b, 1]` broadcast to `[a, b, n]` reads, at `(i, j, k)`, the column at `(i, j, 0)`. -/
theorem broadcastTo_ab1_abn_apply {a b n : ℕ} (v : (⟨3, ![a, b, 1]⟩ : Shape).Idx → α)
    (h : (⟨3, ![a, b, 1]⟩ : Shape).Broadcasts ⟨3, ![a, b, n]⟩) (i : Fin a) (j : Fin b) (k : Fin n) :
    broadcastTo ⟨3, ![a, b, n]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- The reduced index `(i, j)` with the last coordinate `k` put back is `(i, j, k)`. -/
theorem lift_last3 {a b n : ℕ} (h : (⟨3, ![a, b, n]⟩ : Shape).Reduces [2] (⟨2, ![a, b]⟩ : Shape)) (i : Fin a) (j : Fin b)
    (k : Fin ((⟨3, ![a, b, n]⟩ : Shape).size 2)) : h.lift (ix2 i j) k = ix3 i j (⟨k.val, k.isLt⟩ : Fin n) := by
  funext d; apply Fin.ext
  match d with
  | ⟨0, _⟩ => rfl
  | ⟨1, _⟩ => rfl
  | ⟨2, _⟩ => rfl

variable {φ : FTy}

/-- At the ideal values, a sum over the last axis of `[a, b, n]` at `(i, j)` is the sum over `k` of the entries `(i, j, k)`. -/
theorem multiReduction_add_last3 {a b n : ℕ} (x : FVec Ideal (⟨3, ![a, b, n]⟩ : Shape) φ) (acc : BitVec φ.bits)
    (h : (⟨3, ![a, b, n]⟩ : Shape).Reduces [2] (⟨2, ![a, b]⟩ : Shape)) (hφ : FKind.Formats φ) (hacc : acc = FKind.add.neutral φ hφ)
    (i : Fin a) (j : Fin b) :
    multiReduction .add [2] (⟨2, ![a, b]⟩ : Shape) x acc h hφ hacc (ix2 i j) = ∑ k : Fin n, x (ix3 i j k) := by
  rw [Ideal.multiReduction_add_single]
  exact Finset.sum_congr rfl fun k _ => congrArg x (lift_last3 h i j k)

/-- At the ideal values, a maximum over the last axis of `[a, b, n]` at `(i, j)` is the fold of `max`, from the accumulator's
    value, over `k` of the entries `(i, j, k)`. -/
theorem multiReduction_max_last3 {a b n : ℕ} (x : FVec Ideal (⟨3, ![a, b, n]⟩ : Shape) φ) (acc : BitVec φ.bits)
    (h : (⟨3, ![a, b, n]⟩ : Shape).Reduces [2] (⟨2, ![a, b]⟩ : Shape)) (hφ : FKind.Formats φ) (hacc : acc = FKind.maximumf.neutral φ hφ)
    (i : Fin a) (j : Fin b) :
    multiReduction .maximumf [2] (⟨2, ![a, b]⟩ : Shape) x acc h hφ hacc (ix2 i j)
      = (Finset.univ : Finset (Fin n)).fold max (Ideal.ofBits φ acc) (fun k => x (ix3 i j k)) := by
  rw [Ideal.multiReduction_maximumf_single]
  exact congrArg (fun f => Finset.fold max (Ideal.ofBits φ acc) f (Finset.univ : Finset (Fin n)))
    (funext fun k => congrArg x (lift_last3 h i j k))

/-- The reduced index `i` of a matrix's row sums with the column `k` put back is `(i, k)`. -/
theorem lift_last2 {a n : ℕ} (h : (⟨2, ![a, n]⟩ : Shape).Reduces [1] (⟨1, ![a]⟩ : Shape)) (i : Fin a)
    (k : Fin ((⟨2, ![a, n]⟩ : Shape).size 1)) : h.lift (ix1 i) k = ix2 i (⟨k.val, k.isLt⟩ : Fin n) := by
  funext d; apply Fin.ext
  match d with
  | ⟨0, _⟩ => rfl
  | ⟨1, _⟩ => rfl

/-- At the ideal values, the host's sum of each row of an `[a, n]` matrix, at row `i`, is the initial value plus the sum
    over `k` of the entries `(i, k)`. -/
theorem hostReduceAdd_rows {a n : ℕ} (x : FVec Ideal (⟨2, ![a, n]⟩ : Shape) φ) (init : FVec Ideal (⟨0, ![]⟩ : Shape) φ)
    (h' : (⟨2, ![a, n]⟩ : Shape).ReducesTo [1] (⟨1, ![a]⟩ : Shape)) (h : (⟨2, ![a, n]⟩ : Shape).Reduces [1] (⟨1, ![a]⟩ : Shape))
    (hu : 0 < (⟨0, ![]⟩ : Shape).numel) (i : Fin a) :
    Host.reduceAdd x init h' hu (ix1 i) = init (Shape.Idx.first hu) + ∑ k : Fin n, x (ix2 i k) := by
  simp only [Host.reduceAdd, Ideal.hostReduceAdd_def]
  rw [Ideal.hostReduceAdd_single h' h]
  exact congrArg (_ + ·) (Finset.sum_congr rfl fun k _ => congrArg x (lift_last2 h i k))

end Keepdims

end
-- ==== Proof.LibMinReduce.lean ====
/-
  The minimum over the last axis of a rank-3 vector read at an index, the sum over its middle axis, and the layout steps of
  a row kept as a unit middle axis.

  A reduced [a, c] viewed as the row [a, 1, c]; that row broadcast along the middle axis to [a, b, c]; the sum over the
  middle axis of [a, n, c] at (i, k) as the sum over m of the entries (i, m, k); the minimum over the last axis of
  [a, b, n] at (i, j) as the fold of `min` over k of the entries (i, j, k), and, when the accumulator is +∞, as their infimum.
-/
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

namespace MinReduce

open Idealize.ShloMosaic Idealize.ShloMosaic.ValueIdx

variable {α : Type}

/-- An `[a, c]` array cast to the row `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- A row `[a, 1, c]` broadcast to `[a, b, c]` reads, at `(i, j, k)`, the row at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- The reduced index `(i, k)` with the middle coordinate `m` put back is `(i, m, k)`. -/
theorem lift_mid3 {a n c : ℕ} (h : (⟨3, ![a, n, c]⟩ : Shape).Reduces [1] (⟨2, ![a, c]⟩ : Shape)) (i : Fin a) (k : Fin c)
    (m : Fin ((⟨3, ![a, n, c]⟩ : Shape).size 1)) : h.lift (ix2 i k) m = ix3 i (⟨m.val, m.isLt⟩ : Fin n) k := by
  funext d; apply Fin.ext
  match d with
  | ⟨0, _⟩ => rfl
  | ⟨1, _⟩ => rfl
  | ⟨2, _⟩ => rfl

/-- The reduced index `(i, j)` with the last coordinate `k` put back is `(i, j, k)`. -/
theorem lift_last3 {a b n : ℕ} (h : (⟨3, ![a, b, n]⟩ : Shape).Reduces [2] (⟨2, ![a, b]⟩ : Shape)) (i : Fin a) (j : Fin b)
    (k : Fin ((⟨3, ![a, b, n]⟩ : Shape).size 2)) : h.lift (ix2 i j) k = ix3 i j (⟨k.val, k.isLt⟩ : Fin n) := by
  funext d; apply Fin.ext
  match d with
  | ⟨0, _⟩ => rfl
  | ⟨1, _⟩ => rfl
  | ⟨2, _⟩ => rfl

variable {φ : FTy}

/-- At the ideal values, a sum over the middle axis of `[a, n, c]` at `(i, k)` is the sum over `m` of the entries `(i, m, k)`. -/
theorem multiReduction_add_mid3 {a n c : ℕ} (x : FVec Ideal (⟨3, ![a, n, c]⟩ : Shape) φ) (acc : BitVec φ.bits)
    (h : (⟨3, ![a, n, c]⟩ : Shape).Reduces [1] (⟨2, ![a, c]⟩ : Shape)) (hφ : FKind.Formats φ) (hacc : acc = FKind.add.neutral φ hφ)
    (i : Fin a) (k : Fin c) :
    multiReduction .add [1] (⟨2, ![a, c]⟩ : Shape) x acc h hφ hacc (ix2 i k) = ∑ m : Fin n, x (ix3 i m k) := by
  rw [Ideal.multiReduction_add_single]
  exact Finset.sum_congr rfl fun m _ => congrArg x (lift_mid3 h i k m)

/-- At the ideal values a `minimumf` reduction over ONE axis is, at each reduced index, the fold of `min` from the
    accumulator's value over that axis's coordinates. -/
theorem multiReduction_minimumf_single {s t : Shape} {ax : Fin s.rank} (src : FVec Ideal s φ) (acc : BitVec φ.bits)
    (h : s.Reduces [ax] t) (hφ : FKind.Formats φ) (hacc : acc = FKind.minimumf.neutral φ hφ) (j : t.Idx) :
    multiReduction .minimumf [ax] t src acc h hφ hacc j
      = (Finset.univ : Finset (Fin (s.size ax))).fold min (FloatOps.ofBits φ acc) (src ∘ h.lift j) := by
  rw [multiReduction_minimumf_eq_fold]; exact h.fold_filter_drop_single _ _ src j

/-- At the ideal values, a minimum over the last axis of `[a, b, n]` at `(i, j)` is the fold of `min`, from the accumulator's
    value, over `k` of the entries `(i, j, k)`. -/
theorem multiReduction_min_last3 {a b n : ℕ} (x : FVec Ideal (⟨3, ![a, b, n]⟩ : Shape) φ) (acc : BitVec φ.bits)
    (h : (⟨3, ![a, b, n]⟩ : Shape).Reduces [2] (⟨2, ![a, b]⟩ : Shape)) (hφ : FKind.Formats φ) (hacc : acc = FKind.minimumf.neutral φ hφ)
    (i : Fin a) (j : Fin b) :
    multiReduction .minimumf [2] (⟨2, ![a, b]⟩ : Shape) x acc h hφ hacc (ix2 i j)
      = (Finset.univ : Finset (Fin n)).fold min (Ideal.ofBits φ acc) (fun k => x (ix3 i j k)) := by
  rw [multiReduction_minimumf_single]
  exact congrArg (fun f => Finset.fold min (Ideal.ofBits φ acc) f (Finset.univ : Finset (Fin n)))
    (funext fun k => congrArg x (lift_last3 h i j k))

/-- The f32 pattern of +∞ denotes the top extended real. -/
theorem ofBits_inf_f32 : Ideal.ofBits .f32 0x7F800000#32 = (⊤ : EReal) := by
  simp [Ideal.ofBits, Ideal.ieee]

/-- A fold of `min` from the top element is the infimum. -/
theorem fold_min_top_eq_inf {ι : Type} (s : Finset ι) (f : ι → EReal) : s.fold min (⊤ : EReal) f = s.inf f := rfl

/-- At the ideal values, the f32 minimum over the last axis of `[a, b, n]` from the accumulator +∞, at `(i, j)`, is the
    infimum over `k` of the entries `(i, j, k)`. -/
theorem multiReduction_min_last3_inf {a b n : ℕ} (x : FVec Ideal (⟨3, ![a, b, n]⟩ : Shape) .f32)
    (h : (⟨3, ![a, b, n]⟩ : Shape).Reduces [2] (⟨2, ![a, b]⟩ : Shape)) (hφ : FKind.Formats .f32)
    (hacc : (0x7F800000#32 : BitVec 32) = FKind.minimumf.neutral .f32 hφ) (i : Fin a) (j : Fin b) :
    multiReduction .minimumf [2] (⟨2, ![a, b]⟩ : Shape) x 0x7F800000#32 h hφ hacc (ix2 i j)
      = Finset.univ.inf fun k : Fin n => x (ix3 i j k) := by
  rw [multiReduction_min_last3, ofBits_inf_f32]
  exact fold_min_top_eq_inf _ _

end MinReduce

end
-- ==== Proof.PayloadValue.lean ====
/-
  The kernel body's arithmetic read at an index, over the extended reals, for both calls.

  The first payload is the splat of +∞: every entry is the top element. The second is the new running minimum: at batch
  `b` and row `r` it is the minimum of the old accumulator's entry and, over the 1024 columns `j` of the right block, of
  `(Σ_c x0[b,r,c]² + Σ_c x1[b,c,j]²) − 2 · Σ_c x0[b,r,c] · x1[b,c,j]` — the squared distance from row `r` of the left
  block to column `j` of the right one, written as the two squared norms minus twice the inner product.
-/
import proofs.«140404_j28063316312805_1_alg».proof.Proof.PayloadValue0
import proofs.«140404_j28063316312805_1_alg».proof.Proof.LibKeepdims
import proofs.«140404_j28063316312805_1_alg».proof.Proof.LibMinReduce
import Idealize.ShloMosaic.Lib.Pipeline.Value

noncomputable section

namespace Cert.KernelIdeal.PayloadValue

open Idealize.ShloMosaic Idealize.ShloMosaic.ValueIdx
open Cert.KernelIdeal.Gen

/-- The first call's initial accumulator is +∞ at every entry. -/
theorem pay1_apply_0 (b : Fin 4) (r : Fin 512) : k0_pay1 (F := Ideal) (ix2 b r) = ⊤ := by
  unfold Gen.k0_pay1
  rw [shapeCast_self]
  exact MinReduce.ofBits_inf_f32

/-- The second call's initial accumulator is +∞ at every entry. -/
theorem pay1_apply_1 (b : Fin 4) (r : Fin 512) : k1_pay1 (F := Ideal) (ix2 b r) = ⊤ := by
  unfold Gen.k1_pay1
  rw [shapeCast_self]
  exact MinReduce.ofBits_inf_f32

/-- The first call's new accumulator at `(b, r)`: the old entry, or the least squared distance from row `r` of the left
    block to a column of the right block, whichever is smaller. -/
theorem pay2_apply_0 (x0 : Vec Ideal S4x512x3 .f32) (x1 : Vec Ideal S4x3x1024 .f32) (acc : Vec Ideal S4x512 .f32)
    (b : Fin 4) (r : Fin 512) :
    k0_pay2 (F := Ideal) x0 x1 acc (ix2 b r) = min (acc (ix2 b r)) (Finset.univ.inf fun j : Fin 1024 =>
      ((∑ c : Fin 3, x0 (ix3 b r c) * x0 (ix3 b r c)) + (∑ c : Fin 3, x1 (ix3 b c j) * x1 (ix3 b c j)))
        - Ideal.ofBits .f32 0x40000000#32 * ∑ c : Fin 3, x0 (ix3 b r c) * x1 (ix3 b c j)) := by
  unfold Gen.k0_pay2
  -- the two identity casts drop; the outer minimum is pointwise
  rw [shapeCast_self, shapeCast_self]
  rw [minimumf_apply]
  refine congrArg (min (acc (ix2 b r))) ?_
  -- the minimum over the 1024 columns from +∞ is the infimum over j
  refine (MinReduce.multiReduction_min_last3_inf _ _ _ _ b r).trans ?_
  refine Finset.inf_congr rfl fun j _ => ?_
  -- at (b, r, j): (row norm broadcast along j + column norm broadcast along r) − 2 · product
  rw [subf_apply, addf_apply, mulf_apply, broadcast_apply]
  rw [Keepdims.broadcastTo_ab1_abn_apply, Keepdims.shapeCast_ab_ab1_apply]
  rw [MinReduce.broadcastTo_a1c_abc_apply, MinReduce.shapeCast_ac_a1c_apply]
  rw [matmul_zero_apply]
  -- the two squared norms are sums over the three coordinates
  refine congrArg₂ (· - ·) (congrArg₂ (· + ·) ?_ ?_) rfl
  · exact Keepdims.multiReduction_add_last3 _ _ _ _ _ b r
  · exact MinReduce.multiReduction_add_mid3 _ _ _ _ _ b j

/-- The second call's new accumulator at `(b, r)`: the same reading (the two bodies are one text). -/
theorem pay2_apply_1 (x0 : Vec Ideal S4x512x3 .f32) (x1 : Vec Ideal S4x3x1024 .f32) (acc : Vec Ideal S4x512 .f32)
    (b : Fin 4) (r : Fin 512) :
    k1_pay2 (F := Ideal) x0 x1 acc (ix2 b r) = min (acc (ix2 b r)) (Finset.univ.inf fun j : Fin 1024 =>
      ((∑ c : Fin 3, x0 (ix3 b r c) * x0 (ix3 b r c)) + (∑ c : Fin 3, x1 (ix3 b c j) * x1 (ix3 b c j)))
        - Ideal.ofBits .f32 0x40000000#32 * ∑ c : Fin 3, x0 (ix3 b r c) * x1 (ix3 b c j)) := by
  unfold Gen.k1_pay2
  -- the two identity casts drop; the outer minimum is pointwise
  rw [shapeCast_self, shapeCast_self]
  rw [minimumf_apply]
  refine congrArg (min (acc (ix2 b r))) ?_
  -- the minimum over the 1024 columns from +∞ is the infimum over j
  refine (MinReduce.multiReduction_min_last3_inf _ _ _ _ b r).trans ?_
  refine Finset.inf_congr rfl fun j _ => ?_
  -- at (b, r, j): (row norm broadcast along j + column norm broadcast along r) − 2 · product
  rw [subf_apply, addf_apply, mulf_apply, broadcast_apply]
  rw [Keepdims.broadcastTo_ab1_abn_apply, Keepdims.shapeCast_ab_ab1_apply]
  rw [MinReduce.broadcastTo_a1c_abc_apply, MinReduce.shapeCast_ac_a1c_apply]
  rw [matmul_zero_apply]
  -- the two squared norms are sums over the three coordinates
  refine congrArg₂ (· - ·) (congrArg₂ (· + ·) ?_ ?_) rfl
  · exact Keepdims.multiReduction_add_last3 _ _ _ _ _ b r
  · exact MinReduce.multiReduction_add_mid3 _ _ _ _ _ b j

end Cert.KernelIdeal.PayloadValue

end
-- ==== Proof.Spec.lean ====
import Idealize.ShloMosaic.Lib.ValueIdx
import Idealize.ShloMosaic.PureOps.Ideal.Laws
import Idealize.ShloMosaic.PureOps

/-!
  The mathematical specification both programs are compared with: the symmetric nearest-neighbour
  (Chamfer) distance of two batched point sets, on the extended reals.

  For points `x[b,n,·]` and `y[b,m,·]` of ℝ³ the squared distance is expanded as
  `‖p‖² + ‖q‖² − 2·⟨p,q⟩`; `nn` takes, for each point of `x`, the minimum over the points of `y`,
  `nnT` the minimum the other way round, and `tail` is the common last step: the mean of each of the two
  distance arrays (a sum over all `4·8192` entries divided by `32768`), added.
-/

noncomputable section

namespace Cert.Chamfer

open Idealize.ShloMosaic Idealize.ShloMosaic.ValueIdx

/-- A batched point set: 4 batches of 8192 points of ℝ³. -/
abbrev PtS : Shape := ⟨3, ![4, 8192, 3]⟩
/-- One distance per point. -/
abbrev DistS : Shape := ⟨2, ![4, 8192]⟩
/-- The rank-zero shape of the result. -/
abbrev ScS : Shape := ⟨0, ![]⟩

/-- The constant 2 as both programs write it (the f32 word of 2.0 read as an extended real). -/
abbrev two : EReal := Ideal.ofBits .f32 0x40000000#32

/-- ‖p‖² + ‖q‖² − 2·p·q for point n of x and point m of y in batch b. -/
def sqd (x y : PtS.Idx → EReal) (b : Fin 4) (n m : Fin 8192) : EReal :=
  ((∑ c : Fin 3, x (ix3 b n c) * x (ix3 b n c)) + (∑ c : Fin 3, y (ix3 b m c) * y (ix3 b m c)))
    - two * ∑ c : Fin 3, x (ix3 b n c) * y (ix3 b m c)

/-- Nearest-neighbour squared distance from each point of x into y. -/
def nn (x y : PtS.Idx → EReal) : DistS.Idx → EReal :=
  fun i => Finset.univ.inf fun m : Fin 8192 => sqd x y (i 0) (i 1) m

/-- The same towards x: for each point m of y, the minimum over n. -/
def nnT (x y : PtS.Idx → EReal) : DistS.Idx → EReal :=
  fun i => Finset.univ.inf fun n : Fin 8192 => sqd x y (i 0) n (i 1)

/-- The last step both programs share: the mean of each distance array (the sum over all its entries from 0,
    divided by 32768 = 4·8192), and the sum of the two means. The two shape facts are propositions, so any two
    witnesses give the same term. -/
def tail (hr : DistS.ReducesTo [0, 1] ScS) (hs : 0 < ScS.numel) (d1 d2 : DistS.Idx → EReal) : ScS.Idx → EReal :=
  addf (F := Ideal) (φ := .f32)
    (Host.divf (F := Ideal) (φ := .f32)
      (Host.reduceAdd (F := Ideal) (φ := .f32) d1 (constant (F := Ideal) ScS .f32 0x00000000#32) hr hs)
      (constant (F := Ideal) ScS .f32 0x47000000#32))
    (Host.divf (F := Ideal) (φ := .f32)
      (Host.reduceAdd (F := Ideal) (φ := .f32) d2 (constant (F := Ideal) ScS .f32 0x00000000#32) hr hs)
      (constant (F := Ideal) ScS .f32 0x47000000#32))

end Cert.Chamfer

end
-- ==== Proof.SpecLaws.lean ====
import proofs.«140404_j28063316312805_1_alg».proof.Proof.Spec

/-!
  Laws of the specification that need no program: the squared distance is symmetric under exchanging the two
  point sets together with the two point indices, so the minimum "towards x" is the nearest-neighbour distance
  with the roles exchanged; and a minimum over 8192 columns may be taken tile by tile, 8 tiles of 1024 columns,
  as a running minimum starting from +∞.

  Only commutativity and associativity of `+`, `·` and `min` on the extended reals are used.
-/

noncomputable section

namespace Cert.Chamfer

open Idealize.ShloMosaic Idealize.ShloMosaic.ValueIdx

/-! ## Symmetry -/

/-- Exchanging the point sets and the two point indices leaves the squared distance unchanged:
    the two squared norms commute under `+`, each product under `·`. -/
theorem sqd_symm (x y : PtS.Idx → EReal) (b : Fin 4) (n m : Fin 8192) : sqd x y b n m = sqd y x b m n := by
  unfold sqd
  have h : (∑ c : Fin 3, x (ix3 b n c) * y (ix3 b m c)) = ∑ c : Fin 3, y (ix3 b m c) * x (ix3 b n c) :=
    Finset.sum_congr rfl fun c _ => mul_comm _ _
  rw [add_comm (∑ c : Fin 3, x (ix3 b n c) * x (ix3 b n c)), h]

/-- The minimum towards `x` is the nearest-neighbour distance with the roles of the point sets exchanged. -/
theorem nnT_eq_nn_swap (x y : PtS.Idx → EReal) : nnT x y = nn y x := by
  funext i
  unfold nnT nn
  exact congrArg Finset.univ.inf (funext fun n => sqd_symm x y (i 0) n (i 1))

/-- And the other way round. -/
theorem nn_eq_nnT_swap (x y : PtS.Idx → EReal) : nn x y = nnT y x := (nnT_eq_nn_swap y x).symm

/-! ## `Finset.inf` on the extended reals is the fold of `min` from `⊤` -/

/-- On a linear order the lattice infimum of a finite family is the fold of `min` from the top. -/
theorem fold_min_eq_inf {ι : Type*} (s : Finset ι) (g : ι → EReal) : s.fold min ⊤ g = s.inf g := rfl

/-- The same over all of a `Fin n`. -/
theorem fold_min_univ_eq_inf {n : Nat} (g : Fin n → EReal) : Finset.univ.fold min ⊤ g = Finset.univ.inf g := rfl

/-- The same with the ideal values' `minimumf`, which is `min`. -/
theorem fold_minimumf_eq_inf {ι : Type*} (s : Finset ι) (g : ι → EReal) :
    s.fold (FloatOps.minimumf (F := Ideal) (φ := .f32)) ⊤ g = s.inf g := rfl

/-- The f32 word of `+∞` is the top of the extended reals. -/
theorem ofBits_inf_f32 : Ideal.ofBits .f32 0x7F800000#32 = ⊤ := by
  simp [Ideal.ofBits, Ideal.ieee]

/-! ## The tile law -/

/-- The minimum of `f` over tile `k`: the 1024 columns `k·1024 … k·1024 + 1023`. -/
def tileInf (f : Fin 8192 → EReal) (k : Fin 8) : EReal :=
  Finset.univ.inf fun j : Fin 1024 => f ⟨k.val * 1024 + j.val, by have := k.isLt; have := j.isLt; omega⟩

/-- The minimum over all 8192 columns is the minimum over the 8 tiles of the tiles' minima: every column lies in
    exactly one tile (column `i` in tile `i / 1024` at offset `i % 1024`). -/
theorem inf_eq_inf_tileInf (f : Fin 8192 → EReal) : Finset.univ.inf f = Finset.univ.inf (tileInf f) := by
  apply le_antisymm
  · exact Finset.le_inf fun k _ => Finset.le_inf fun j _ => Finset.inf_le (Finset.mem_univ _)
  · refine Finset.le_inf fun i _ => ?_
    have hi := i.isLt
    have hk : i.val / 1024 < 8 := by omega
    have hj : i.val % 1024 < 1024 := by omega
    refine (Finset.inf_le (Finset.mem_univ (⟨i.val / 1024, hk⟩ : Fin 8))).trans ?_
    refine (Finset.inf_le (Finset.mem_univ (⟨i.val % 1024, hj⟩ : Fin 1024))).trans (le_of_eq ?_)
    exact congrArg f (Fin.ext (by show i.val / 1024 * 1024 + i.val % 1024 = i.val; omega))

/-- A running minimum over the tiles: any sequence that starts at `min ⊤` of tile 0's minimum and at each later
    tile takes the minimum of its previous value and that tile's minimum holds, after tile `k`, the minimum over
    the tiles `0 … k`. -/
theorem running_eq_inf_filter (f : Fin 8192 → EReal) (a : ℕ → EReal)
    (h0 : a 0 = min ⊤ (tileInf f ⟨0, by omega⟩))
    (hs : ∀ k (hk : k + 1 < 8), a (k + 1) = min (a k) (tileInf f ⟨k + 1, hk⟩)) :
    ∀ k (hk : k < 8), a k = (Finset.univ.filter fun i : Fin 8 => i.val ≤ k).inf (tileInf f) := by
  intro k
  induction k with
  | zero =>
    intro _
    have e : (Finset.univ.filter fun i : Fin 8 => i.val ≤ 0) = {(⟨0, by omega⟩ : Fin 8)} := by
      ext i
      simp only [Finset.mem_filter, Finset.mem_univ, true_and, Finset.mem_singleton, Fin.ext_iff]
      omega
    rw [h0, e, Finset.inf_singleton, min_eq_right le_top]
  | succ k ih =>
    intro hk
    have e : (Finset.univ.filter fun i : Fin 8 => i.val ≤ k + 1)
        = insert (⟨k + 1, hk⟩ : Fin 8) (Finset.univ.filter fun i : Fin 8 => i.val ≤ k) := by
      ext i
      simp only [Finset.mem_filter, Finset.mem_univ, true_and, Finset.mem_insert, Fin.ext_iff]
      omega
    rw [hs k hk, ih (by omega), e, Finset.inf_insert]
    exact min_comm _ _

/-- After the last tile such a running minimum is the minimum over all 8192 columns. -/
theorem running_last_eq_inf (f : Fin 8192 → EReal) (a : ℕ → EReal)
    (h0 : a 0 = min ⊤ (tileInf f ⟨0, by omega⟩))
    (hs : ∀ k (hk : k + 1 < 8), a (k + 1) = min (a k) (tileInf f ⟨k + 1, hk⟩)) :
    a 7 = Finset.univ.inf f := by
  rw [running_eq_inf_filter f a h0 hs 7 (by omega), inf_eq_inf_tileInf,
    Finset.filter_true_of_mem fun i _ => by have := i.isLt; omega]

/-- The running minimum as a function: `accK f k` is the value after tile `k` (tiles past the last one add nothing). -/
def accK (f : Fin 8192 → EReal) : ℕ → EReal
  | 0 => min ⊤ (tileInf f ⟨0, by omega⟩)
  | k + 1 => if hk : k + 1 < 8 then min (accK f k) (tileInf f ⟨k + 1, hk⟩) else accK f k

theorem accK_zero (f : Fin 8192 → EReal) : accK f 0 = min ⊤ (tileInf f ⟨0, by omega⟩) := rfl

theorem accK_succ (f : Fin 8192 → EReal) (k : ℕ) (hk : k + 1 < 8) :
    accK f (k + 1) = min (accK f k) (tileInf f ⟨k + 1, hk⟩) := by
  rw [accK, dif_pos hk]

/-- After the last tile the running minimum is the minimum over all columns. -/
theorem accK_last (f : Fin 8192 → EReal) : accK f 7 = Finset.univ.inf f :=
  running_last_eq_inf f (accK f) (accK_zero f) (accK_succ f)

end Cert.Chamfer

end
-- ==== Proof.AccValue0.lean ====
/-
  The first call's running minimum read against the whole arrays.

  The grid is 16 row blocks × 8 column tiles, visited row-major: position `t` is row block `t / 8`, tile `t % 8`. The first
  window's block holds 512 rows of the point array, the second's 1024 columns of the transposed point array. At each point
  the body takes the minimum of the running value and the tile's least squared distance; started from +∞ at a row block's
  first tile, after its last tile the running minimum at `(b, r)` is the least squared distance from row `512·(t/8) + r` to
  ALL 8192 columns.
-/
import proofs.«140404_j28063316312805_1_alg».proof.Proof.FrBody0
import proofs.«140404_j28063316312805_1_alg».proof.Proof.PayloadValue
import proofs.«140404_j28063316312805_1_alg».proof.Proof.SpecLaws

set_option maxRecDepth 16384

noncomputable section

namespace Cert.KernelIdeal.AccValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr

/-- The squared distance from point `n` of `X` (rows of coordinates) to point `m'` of `YT` (columns of coordinates) in
    batch `b`, as the two squared norms minus twice the inner product. -/
abbrev rowF (X : S4x8192x3.Idx → EReal) (YT : S4x3x8192.Idx → EReal) (b : Fin 4) (n : Fin 8192) : Fin 8192 → EReal := fun m' =>
  ((∑ cc : Fin 3, X (ix3 b n cc) * X (ix3 b n cc)) + (∑ cc : Fin 3, YT (ix3 b cc m') * YT (ix3 b cc m')))
    - Cert.Chamfer.two * ∑ cc : Fin 3, X (ix3 b n cc) * YT (ix3 b cc m')

/-- ONE TILE over variables: if a [4,512,3] block holds rows `512·T …` of `X` and a [4,3,1024] block holds columns
    `k·1024 …` of `YT`, the block-level minimum over the 1024 columns at `(b, r)` is the minimum over tile `k` of the squared
    distances from row `512·T + r`. -/
theorem tile_step (X : S4x8192x3.Idx → EReal) (YT : S4x3x8192.Idx → EReal) (x0 : Vec Ideal S4x512x3 .f32)
    (x1 : Vec Ideal S4x3x1024 .f32) (T k : ℕ) (hT : T < 16) (hk : k < 8)
    (h0 : ∀ (b : Fin 4) (r : Fin 512) (cc : Fin 3), x0 (ix3 b r cc) = X (ix3 b ⟨512 * T + r.val, by have := r.isLt; omega⟩ cc))
    (h1 : ∀ (b : Fin 4) (cc : Fin 3) (j : Fin 1024), x1 (ix3 b cc j) = YT (ix3 b cc ⟨k * 1024 + j.val, by have := j.isLt; omega⟩))
    (b : Fin 4) (r : Fin 512) :
    (Finset.univ.inf fun j : Fin 1024 =>
      ((∑ c : Fin 3, x0 (ix3 b r c) * x0 (ix3 b r c)) + (∑ c : Fin 3, x1 (ix3 b c j) * x1 (ix3 b c j)))
        - Ideal.ofBits .f32 0x40000000#32 * ∑ c : Fin 3, x0 (ix3 b r c) * x1 (ix3 b c j))
      = Cert.Chamfer.tileInf (rowF X YT b ⟨512 * T + r.val, by have := r.isLt; omega⟩) ⟨k, hk⟩ := by
  simp only [h0, h1]
  rfl

/-- The printed index maps of the two input windows, decided once over the grid (16 row blocks × 8 column tiles, row-major):
    the first window's block sits at row block `t / 8`, the second's at column tile `t % 8`; every other block index is 0. -/
theorem idx_facts0 : ∀ t : Fin cfg0.N, win0_0.index t (0 : Fin 3) = 0 ∧ win0_0.index t (1 : Fin 3) = t.val / 8
    ∧ win0_0.index t (2 : Fin 3) = 0 ∧ win0_1.index t (0 : Fin 3) = 0 ∧ win0_1.index t (1 : Fin 3) = 0
    ∧ win0_1.index t (2 : Fin 3) = t.val % 8 :=
  (by decide +kernel : ∀ t : Fin grid0.N, _)

section
variable (V : (c : Dev nD) → (b : Ref sig .tc) → Buf (Elt Ideal) ((c : Thread nD τ).loc b))

/-- The first window's block at point `t` holds the rows `512·(t/8) … 512·(t/8) + 511` of the point array. -/
theorem iblk0_0_apply (c : Dev nD) (t : Fin cfg0.N) (b : Fin 4) (r : Fin 512) (cc : Fin 3) :
    iblk0 (F := Ideal) V c 0 t (ix3 b r cc)
      = (V c main_arg0 : S4x8192x3.Idx → EReal) (ix3 b ⟨512 * (t.val / 8) + r.val, by
          have := t.isLt; have h : cfg0.N = 128 := Gen.N_0; have := r.isLt; omega⟩ cc) := by
  obtain ⟨e0, e1, e2, -, -, -⟩ := idx_facts0 t
  show V c main_arg0 (((cfg0.win 0).blk t).view.emb (ix3 b r cc)) = _
  refine congrArg (V c main_arg0) (funext fun a => Fin.ext ?_)
  match a with
  | ⟨0, _⟩ => show win0_0.index t (0 : Fin 3) * 4 + 1 * b.val = b.val; omega
  | ⟨1, _⟩ => show win0_0.index t (1 : Fin 3) * 512 + 1 * r.val = 512 * (t.val / 8) + r.val; omega
  | ⟨2, _⟩ => show win0_0.index t (2 : Fin 3) * 3 + 1 * cc.val = cc.val; omega

/-- The second window's block at point `t` holds the columns `1024·(t%8) … 1024·(t%8) + 1023` of the transposed point array. -/
theorem iblk0_1_apply (c : Dev nD) (t : Fin cfg0.N) (b : Fin 4) (cc : Fin 3) (j : Fin 1024) :
    iblk0 (F := Ideal) V c 1 t (ix3 b cc j)
      = (V c main_v0 : S4x3x8192.Idx → EReal) (ix3 b cc ⟨1024 * (t.val % 8) + j.val, by
          have := j.isLt; omega⟩) := by
  obtain ⟨-, -, -, e0, e1, e2⟩ := idx_facts0 t
  show V c main_v0 (((cfg0.win 1).blk t).view.emb (ix3 b cc j)) = _
  refine congrArg (V c main_v0) (funext fun a => Fin.ext ?_)
  match a with
  | ⟨0, _⟩ => show win0_1.index t (0 : Fin 3) * 4 + 1 * b.val = b.val; omega
  | ⟨1, _⟩ => show win0_1.index t (1 : Fin 3) * 3 + 1 * cc.val = cc.val; omega
  | ⟨2, _⟩ => show win0_1.index t (2 : Fin 3) * 1024 + 1 * j.val = 1024 * (t.val % 8) + j.val; omega

/-- The running minimum depends on the position only. -/
theorem accAt0_congr (c : Dev nD) (n m : ℕ) (h : n = m) (hn : n < cfg0.N) (hm : m < cfg0.N) :
    accAt0 (F := Ideal) V c n hn = accAt0 (F := Ideal) V c m hm := by
  subst h; rfl

/-- ONE POINT: at position `8·T + k` (row block `T`, tile `k`) the new running minimum at `(b, r)` is the old one's entry
    or the minimum over tile `k` of the squared distances from row `512·T + r`, whichever is smaller. -/
theorem point_step0 (c : Dev nD) (s : Fin cfg0.N) (T k : ℕ) (hk : k < 8) (hT : T < 16) (hs : s.val = 8 * T + k)
    (acc : Vec Ideal S4x512 .f32) (b : Fin 4) (r : Fin 512) :
    k0_pay2 (F := Ideal) (iblk0 (F := Ideal) V c 0 s) (iblk0 (F := Ideal) V c 1 s) acc (ix2 b r)
      = min (acc (ix2 b r)) (Cert.Chamfer.tileInf (rowF (V c main_arg0 : S4x8192x3.Idx → EReal) (V c main_v0 : S4x3x8192.Idx → EReal) b
          ⟨512 * T + r.val, by have := r.isLt; omega⟩) ⟨k, hk⟩) := by
  refine (PayloadValue.pay2_apply_0 _ _ acc b r).trans (congrArg (min (acc (ix2 b r))) ?_)
  refine tile_step (V c main_arg0 : S4x8192x3.Idx → EReal) (V c main_v0 : S4x3x8192.Idx → EReal) _ _ T k hT hk ?_ ?_ b r
  · intro b r cc
    refine (iblk0_0_apply V c s b r cc).trans (congrArg (fun z => (V c main_arg0 : S4x8192x3.Idx → EReal) (ix3 b z cc)) (Fin.ext ?_))
    show 512 * (s.val / 8) + r.val = 512 * T + r.val
    omega
  · intro b cc j
    refine (iblk0_1_apply V c s b cc j).trans (congrArg (fun z => (V c main_v0 : S4x3x8192.Idx → EReal) (ix3 b cc z)) (Fin.ext ?_))
    show 1024 * (s.val % 8) + j.val = k * 1024 + j.val
    omega

/-- AFTER A ROW BLOCK'S LAST TILE the running minimum at `(b, r)` is the minimum over ALL 8192 columns of the squared
    distance from row `512·(t/8) + r`: the eight tiles' minima, taken one after the other from +∞. -/
theorem accAt0_last (c : Dev nD) (t : Fin cfg0.N) (h7 : t.val % 8 = 7) (b : Fin 4) (r : Fin 512) :
    accAt0 (F := Ideal) V c t.val t.isLt (ix2 b r)
      = Finset.univ.inf (rowF (V c main_arg0 : S4x8192x3.Idx → EReal) (V c main_v0 : S4x3x8192.Idx → EReal) b
          ⟨512 * (t.val / 8) + r.val, by
            have := t.isLt; have h : cfg0.N = 128 := Gen.N_0; have := r.isLt; omega⟩) := by
  have hN : cfg0.N = 128 := Gen.N_0
  have htl := t.isLt
  have hT : t.val / 8 < 16 := by omega
  -- the running minimum's entry after tile k of this row block (⊤ past the grid, which does not happen)
  let a : ℕ → EReal := fun k => if hk : 8 * (t.val / 8) + k < cfg0.N then
    accAt0 (F := Ideal) V c (8 * (t.val / 8) + k) hk (ix2 b r) else ⊤
  have ha : ∀ k (hk : 8 * (t.val / 8) + k < cfg0.N), a k = accAt0 (F := Ideal) V c (8 * (t.val / 8) + k) hk (ix2 b r) :=
    fun k hk => dif_pos hk
  have h0 : a 0 = min ⊤ (Cert.Chamfer.tileInf (rowF (V c main_arg0 : S4x8192x3.Idx → EReal) (V c main_v0 : S4x3x8192.Idx → EReal) b
      ⟨512 * (t.val / 8) + r.val, by have := r.isLt; omega⟩) ⟨0, by omega⟩) := by
    have hlt : 8 * (t.val / 8) + 0 < cfg0.N := by omega
    rw [ha 0 hlt, accAt0_first V c ⟨8 * (t.val / 8) + 0, hlt⟩ (by show (8 * (t.val / 8) + 0) % 8 = 0; omega)]
    rw [point_step0 V c ⟨8 * (t.val / 8) + 0, hlt⟩ (t.val / 8) 0 (by omega) hT rfl, PayloadValue.pay1_apply_0]
  have hs : ∀ k (hk : k + 1 < 8), a (k + 1) = min (a k) (Cert.Chamfer.tileInf
      (rowF (V c main_arg0 : S4x8192x3.Idx → EReal) (V c main_v0 : S4x3x8192.Idx → EReal) b
        ⟨512 * (t.val / 8) + r.val, by have := r.isLt; omega⟩) ⟨k + 1, hk⟩) := by
    intro k hk
    have hlt : 8 * (t.val / 8) + (k + 1) < cfg0.N := by omega
    have hlt' : 8 * (t.val / 8) + k < cfg0.N := by omega
    rw [ha (k + 1) hlt, ha k hlt', accAt0_next V c ⟨8 * (t.val / 8) + (k + 1), hlt⟩ (by show ¬(8 * (t.val / 8) + (k + 1)) % 8 = 0; omega)]
    rw [point_step0 V c ⟨8 * (t.val / 8) + (k + 1), hlt⟩ (t.val / 8) (k + 1) hk hT rfl]
    exact congrArg (fun z => min (z (ix2 b r)) _) (accAt0_congr V c _ _ (by show 8 * (t.val / 8) + (k + 1) - 1 = 8 * (t.val / 8) + k; omega) _ _)
  have hlast := Cert.Chamfer.running_last_eq_inf _ a h0 hs
  have h7lt : 8 * (t.val / 8) + 7 < cfg0.N := by omega
  rw [ha 7 h7lt, accAt0_congr V c _ t.val (by omega) h7lt t.isLt] at hlast
  exact hlast

end

end Cert.KernelIdeal.AccValue

end
-- ==== Proof.AccValue1.lean ====
/-
  The second call's running minimum read against the whole arrays: the same reading as the first call's, over the second
  call's two arrays (the other point array, and the transposed first one).
-/
import proofs.«140404_j28063316312805_1_alg».proof.Proof.FrBody1
import proofs.«140404_j28063316312805_1_alg».proof.Proof.AccValue0
import proofs.«140404_j28063316312805_1_alg».proof.Proof.PayloadValue
import proofs.«140404_j28063316312805_1_alg».proof.Proof.SpecLaws

set_option maxRecDepth 16384

noncomputable section

namespace Cert.KernelIdeal.AccValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr

/-- The printed index maps of the two input windows, decided once over the grid (16 row blocks × 8 column tiles, row-major):
    the first window's block sits at row block `t / 8`, the second's at column tile `t % 8`; every other block index is 0. -/
theorem idx_facts1 : ∀ t : Fin cfg1.N, win1_0.index t (0 : Fin 3) = 0 ∧ win1_0.index t (1 : Fin 3) = t.val / 8
    ∧ win1_0.index t (2 : Fin 3) = 0 ∧ win1_1.index t (0 : Fin 3) = 0 ∧ win1_1.index t (1 : Fin 3) = 0
    ∧ win1_1.index t (2 : Fin 3) = t.val % 8 :=
  (by decide +kernel : ∀ t : Fin grid1.N, _)

section
variable (V : (c : Dev nD) → (b : Ref sig .tc) → Buf (Elt Ideal) ((c : Thread nD τ).loc b))

/-- The first window's block at point `t` holds the rows `512·(t/8) … 512·(t/8) + 511` of the point array. -/
theorem iblk1_0_apply (c : Dev nD) (t : Fin cfg1.N) (b : Fin 4) (r : Fin 512) (cc : Fin 3) :
    iblk1 (F := Ideal) V c 0 t (ix3 b r cc)
      = (V c main_arg1 : S4x8192x3.Idx → EReal) (ix3 b ⟨512 * (t.val / 8) + r.val, by
          have := t.isLt; have h : cfg1.N = 128 := Gen.N_1; have := r.isLt; omega⟩ cc) := by
  obtain ⟨e0, e1, e2, -, -, -⟩ := idx_facts1 t
  show V c main_arg1 (((cfg1.win 0).blk t).view.emb (ix3 b r cc)) = _
  refine congrArg (V c main_arg1) (funext fun a => Fin.ext ?_)
  match a with
  | ⟨0, _⟩ => show win1_0.index t (0 : Fin 3) * 4 + 1 * b.val = b.val; omega
  | ⟨1, _⟩ => show win1_0.index t (1 : Fin 3) * 512 + 1 * r.val = 512 * (t.val / 8) + r.val; omega
  | ⟨2, _⟩ => show win1_0.index t (2 : Fin 3) * 3 + 1 * cc.val = cc.val; omega

/-- The second window's block at point `t` holds the columns `1024·(t%8) … 1024·(t%8) + 1023` of the transposed point array. -/
theorem iblk1_1_apply (c : Dev nD) (t : Fin cfg1.N) (b : Fin 4) (cc : Fin 3) (j : Fin 1024) :
    iblk1 (F := Ideal) V c 1 t (ix3 b cc j)
      = (V c main_v2 : S4x3x8192.Idx → EReal) (ix3 b cc ⟨1024 * (t.val % 8) + j.val, by
          have := j.isLt; omega⟩) := by
  obtain ⟨-, -, -, e0, e1, e2⟩ := idx_facts1 t
  show V c main_v2 (((cfg1.win 1).blk t).view.emb (ix3 b cc j)) = _
  refine congrArg (V c main_v2) (funext fun a => Fin.ext ?_)
  match a with
  | ⟨0, _⟩ => show win1_1.index t (0 : Fin 3) * 4 + 1 * b.val = b.val; omega
  | ⟨1, _⟩ => show win1_1.index t (1 : Fin 3) * 3 + 1 * cc.val = cc.val; omega
  | ⟨2, _⟩ => show win1_1.index t (2 : Fin 3) * 1024 + 1 * j.val = 1024 * (t.val % 8) + j.val; omega

/-- The running minimum depends on the position only. -/
theorem accAt1_congr (c : Dev nD) (n m : ℕ) (h : n = m) (hn : n < cfg1.N) (hm : m < cfg1.N) :
    accAt1 (F := Ideal) V c n hn = accAt1 (F := Ideal) V c m hm := by
  subst h; rfl

/-- ONE POINT: at position `8·T + k` (row block `T`, tile `k`) the new running minimum at `(b, r)` is the old one's entry
    or the minimum over tile `k` of the squared distances from row `512·T + r`, whichever is smaller. -/
theorem point_step1 (c : Dev nD) (s : Fin cfg1.N) (T k : ℕ) (hk : k < 8) (hT : T < 16) (hs : s.val = 8 * T + k)
    (acc : Vec Ideal S4x512 .f32) (b : Fin 4) (r : Fin 512) :
    k1_pay2 (F := Ideal) (iblk1 (F := Ideal) V c 0 s) (iblk1 (F := Ideal) V c 1 s) acc (ix2 b r)
      = min (acc (ix2 b r)) (Cert.Chamfer.tileInf (rowF (V c main_arg1 : S4x8192x3.Idx → EReal) (V c main_v2 : S4x3x8192.Idx → EReal) b
          ⟨512 * T + r.val, by have := r.isLt; omega⟩) ⟨k, hk⟩) := by
  refine (PayloadValue.pay2_apply_1 _ _ acc b r).trans (congrArg (min (acc (ix2 b r))) ?_)
  refine tile_step (V c main_arg1 : S4x8192x3.Idx → EReal) (V c main_v2 : S4x3x8192.Idx → EReal) _ _ T k hT hk ?_ ?_ b r
  · intro b r cc
    refine (iblk1_0_apply V c s b r cc).trans (congrArg (fun z => (V c main_arg1 : S4x8192x3.Idx → EReal) (ix3 b z cc)) (Fin.ext ?_))
    show 512 * (s.val / 8) + r.val = 512 * T + r.val
    omega
  · intro b cc j
    refine (iblk1_1_apply V c s b cc j).trans (congrArg (fun z => (V c main_v2 : S4x3x8192.Idx → EReal) (ix3 b cc z)) (Fin.ext ?_))
    show 1024 * (s.val % 8) + j.val = k * 1024 + j.val
    omega

/-- AFTER A ROW BLOCK'S LAST TILE the running minimum at `(b, r)` is the minimum over ALL 8192 columns of the squared
    distance from row `512·(t/8) + r`: the eight tiles' minima, taken one after the other from +∞. -/
theorem accAt1_last (c : Dev nD) (t : Fin cfg1.N) (h7 : t.val % 8 = 7) (b : Fin 4) (r : Fin 512) :
    accAt1 (F := Ideal) V c t.val t.isLt (ix2 b r)
      = Finset.univ.inf (rowF (V c main_arg1 : S4x8192x3.Idx → EReal) (V c main_v2 : S4x3x8192.Idx → EReal) b
          ⟨512 * (t.val / 8) + r.val, by
            have := t.isLt; have h : cfg1.N = 128 := Gen.N_1; have := r.isLt; omega⟩) := by
  have hN : cfg1.N = 128 := Gen.N_1
  have htl := t.isLt
  have hT : t.val / 8 < 16 := by omega
  -- the running minimum's entry after tile k of this row block (⊤ past the grid, which does not happen)
  let a : ℕ → EReal := fun k => if hk : 8 * (t.val / 8) + k < cfg1.N then
    accAt1 (F := Ideal) V c (8 * (t.val / 8) + k) hk (ix2 b r) else ⊤
  have ha : ∀ k (hk : 8 * (t.val / 8) + k < cfg1.N), a k = accAt1 (F := Ideal) V c (8 * (t.val / 8) + k) hk (ix2 b r) :=
    fun k hk => dif_pos hk
  have h0 : a 0 = min ⊤ (Cert.Chamfer.tileInf (rowF (V c main_arg1 : S4x8192x3.Idx → EReal) (V c main_v2 : S4x3x8192.Idx → EReal) b
      ⟨512 * (t.val / 8) + r.val, by have := r.isLt; omega⟩) ⟨0, by omega⟩) := by
    have hlt : 8 * (t.val / 8) + 0 < cfg1.N := by omega
    rw [ha 0 hlt, accAt1_first V c ⟨8 * (t.val / 8) + 0, hlt⟩ (by show (8 * (t.val / 8) + 0) % 8 = 0; omega)]
    rw [point_step1 V c ⟨8 * (t.val / 8) + 0, hlt⟩ (t.val / 8) 0 (by omega) hT rfl, PayloadValue.pay1_apply_1]
  have hs : ∀ k (hk : k + 1 < 8), a (k + 1) = min (a k) (Cert.Chamfer.tileInf
      (rowF (V c main_arg1 : S4x8192x3.Idx → EReal) (V c main_v2 : S4x3x8192.Idx → EReal) b
        ⟨512 * (t.val / 8) + r.val, by have := r.isLt; omega⟩) ⟨k + 1, hk⟩) := by
    intro k hk
    have hlt : 8 * (t.val / 8) + (k + 1) < cfg1.N := by omega
    have hlt' : 8 * (t.val / 8) + k < cfg1.N := by omega
    rw [ha (k + 1) hlt, ha k hlt', accAt1_next V c ⟨8 * (t.val / 8) + (k + 1), hlt⟩ (by show ¬(8 * (t.val / 8) + (k + 1)) % 8 = 0; omega)]
    rw [point_step1 V c ⟨8 * (t.val / 8) + (k + 1), hlt⟩ (t.val / 8) (k + 1) hk hT rfl]
    exact congrArg (fun z => min (z (ix2 b r)) _) (accAt1_congr V c _ _ (by show 8 * (t.val / 8) + (k + 1) - 1 = 8 * (t.val / 8) + k; omega) _ _)
  have hlast := Cert.Chamfer.running_last_eq_inf _ a h0 hs
  have h7lt : 8 * (t.val / 8) + 7 < cfg1.N := by omega
  rw [ha 7 h7lt, accAt1_congr V c _ t.val (by omega) h7lt t.isLt] at hlast
  exact hlast

end

end Cert.KernelIdeal.AccValue

end
-- ==== Proof.HostValue.lean ====
import proofs.«140404_j28063316312805_1_alg».proof.Proof.Gen.KernelIdeal.Launch
import proofs.«140404_j28063316312805_1_alg».proof.Proof.Gen.KernelIdeal.Regions
import proofs.«140404_j28063316312805_1_alg».proof.Proof.SpecLaws
import Idealize.ShloMosaic.Lib.StableHlo.Run
import Idealize.ShloMosaic.Lib.Pipeline.Value

/-!
  The host operations of the tiled program, read at the extended reals over an arbitrary valuation of its buffers.

  Before each of the two tiled calls the program transposes one point set, `[4, 8192, 3] → [4, 3, 8192]`, so that
  the call reads coordinate `c` of point `m` at `(b, c, m)`; after the calls it takes the mean of each of the two
  distance arrays and adds the means — the shared last step `tail`. A distance row written with the transposed
  point set in the place of the second one is the specification's nearest-neighbour distance.
-/

noncomputable section

namespace Cert.KernelIdeal.HostValue

open Cert.KernelIdeal Cert.KernelIdeal.Gen Idealize.ShloMosaic Idealize.ShloMosaic.TcCoe Idealize.ShloMosaic.ValueIdx
open Idealize.ShloMosaic.StableHlo Cert.Chamfer

/-- The first host stretch writes the transpose of the second argument. -/
theorem after0_v0 (W : Valuation τ sig (Elt Ideal)) :
    (StableHlo.after (hostOps0 (F := Ideal)) W (Proc.devRef .tc main_v0) : S4x3x8192.Idx → EReal)
      = transpose S4x3x8192 [0, 2, 1] (W (Proc.devRef .tc main_arg1)) transposes_S4x8192x3_S4x3x8192_0_2_1 := by
  after_results

/-- The second host stretch writes the transpose of the first argument. -/
theorem after1_v2 (W : Valuation τ sig (Elt Ideal)) :
    (StableHlo.after (hostOps1 (F := Ideal)) W (Proc.devRef .tc main_v2) : S4x3x8192.Idx → EReal)
      = transpose S4x3x8192 [0, 2, 1] (W (Proc.devRef .tc main_arg0)) transposes_S4x8192x3_S4x3x8192_0_2_1 := by
  after_results

/-- The transposed point set at `(b, c, m)` is the point set at `(b, m, c)`. -/
theorem transpose_apply (y : S4x8192x3.Idx → EReal) (b : Fin 4) (cc : Fin 3) (m' : Fin 8192) :
    transpose S4x3x8192 [0, 2, 1] y transposes_S4x8192x3_S4x3x8192_0_2_1 (ix3 b cc m') = y (ix3 b m' cc) :=
  Idealize.ShloMosaic.transpose_apply _ y transposes_S4x8192x3_S4x3x8192_0_2_1 (ix3 b cc m') (ix3 b m' cc)
    (fun a => match a with | ⟨0, _⟩ => rfl | ⟨1, _⟩ => rfl | ⟨2, _⟩ => rfl)

/-- The last host stretch writes the shared last step of the two distance arrays. -/
theorem after2_v8 (W : Valuation τ sig (Elt Ideal)) :
    (StableHlo.after (hostOps2 (F := Ideal)) W (Proc.devRef .tc main_v8) : S_.Idx → EReal)
      = Cert.Chamfer.tail reducesTo_S4x8192_S_d0_1 h_S_ (W (Proc.devRef .tc main_v1)) (W (Proc.devRef .tc main_v3)) := by
  after_results
  rfl

/-- A host stretch leaves every buffer it does not write as it was. -/
theorem after0_of (W : Valuation τ sig (Elt Ideal)) (r : Ref sig .tc) (h : r ∉ hostOps0_W) :
    StableHlo.after (hostOps0 (F := Ideal)) W (Proc.devRef .tc r) = W (Proc.devRef .tc r) :=
  StableHlo.after_of_writes_sub hostOps0 _ hostOps0_writes h
theorem after1_of (W : Valuation τ sig (Elt Ideal)) (r : Ref sig .tc) (h : r ∉ hostOps1_W) :
    StableHlo.after (hostOps1 (F := Ideal)) W (Proc.devRef .tc r) = W (Proc.devRef .tc r) :=
  StableHlo.after_of_writes_sub hostOps1 _ hostOps1_writes h
theorem after2_of (W : Valuation τ sig (Elt Ideal)) (r : Ref sig .tc) (h : r ∉ hostOps2_W) :
    StableHlo.after (hostOps2 (F := Ideal)) W (Proc.devRef .tc r) = W (Proc.devRef .tc r) :=
  StableHlo.after_of_writes_sub hostOps2 _ hostOps2_writes h

/-- In particular the last stretch leaves the two distance arrays and the arguments alone. -/
theorem after2_v1 (W : Valuation τ sig (Elt Ideal)) :
    StableHlo.after (hostOps2 (F := Ideal)) W (Proc.devRef .tc main_v1) = W (Proc.devRef .tc main_v1) :=
  after2_of W main_v1 (by decide)
theorem after2_v3 (W : Valuation τ sig (Elt Ideal)) :
    StableHlo.after (hostOps2 (F := Ideal)) W (Proc.devRef .tc main_v3) = W (Proc.devRef .tc main_v3) :=
  after2_of W main_v3 (by decide)
theorem after2_arg0 (W : Valuation τ sig (Elt Ideal)) :
    StableHlo.after (hostOps2 (F := Ideal)) W (Proc.devRef .tc main_arg0) = W (Proc.devRef .tc main_arg0) :=
  after2_of W main_arg0 (by decide)
theorem after2_arg1 (W : Valuation τ sig (Elt Ideal)) :
    StableHlo.after (hostOps2 (F := Ideal)) W (Proc.devRef .tc main_arg1) = W (Proc.devRef .tc main_arg1) :=
  after2_of W main_arg1 (by decide)
theorem after0_arg0 (W : Valuation τ sig (Elt Ideal)) :
    StableHlo.after (hostOps0 (F := Ideal)) W (Proc.devRef .tc main_arg0) = W (Proc.devRef .tc main_arg0) :=
  after0_of W main_arg0 (by decide)
theorem after0_arg1 (W : Valuation τ sig (Elt Ideal)) :
    StableHlo.after (hostOps0 (F := Ideal)) W (Proc.devRef .tc main_arg1) = W (Proc.devRef .tc main_arg1) :=
  after0_of W main_arg1 (by decide)
theorem after1_arg0 (W : Valuation τ sig (Elt Ideal)) :
    StableHlo.after (hostOps1 (F := Ideal)) W (Proc.devRef .tc main_arg0) = W (Proc.devRef .tc main_arg0) :=
  after1_of W main_arg0 (by decide)
theorem after1_arg1 (W : Valuation τ sig (Elt Ideal)) :
    StableHlo.after (hostOps1 (F := Ideal)) W (Proc.devRef .tc main_arg1) = W (Proc.devRef .tc main_arg1) :=
  after1_of W main_arg1 (by decide)
theorem after1_v0 (W : Valuation τ sig (Elt Ideal)) :
    StableHlo.after (hostOps1 (F := Ideal)) W (Proc.devRef .tc main_v0) = W (Proc.devRef .tc main_v0) :=
  after1_of W main_v0 (by decide)
theorem after1_v1 (W : Valuation τ sig (Elt Ideal)) :
    StableHlo.after (hostOps1 (F := Ideal)) W (Proc.devRef .tc main_v1) = W (Proc.devRef .tc main_v1) :=
  after1_of W main_v1 (by decide)

/-- A distance row written over the transposed second point set is the nearest-neighbour distance: at each column
    `m'` the transposed set at `(b, c, m')` is `y` at `(b, m', c)`, so the term is `sqd x y b n m'`. -/
theorem inf_sqdT_eq_nn (x y : S4x8192x3.Idx → EReal) (b : Fin 4) (n : Fin 8192) :
    (Finset.univ.inf fun m' : Fin 8192 =>
        ((∑ cc : Fin 3, x (ix3 b n cc) * x (ix3 b n cc))
          + (∑ cc : Fin 3, transpose S4x3x8192 [0, 2, 1] y transposes_S4x8192x3_S4x3x8192_0_2_1 (ix3 b cc m')
              * transpose S4x3x8192 [0, 2, 1] y transposes_S4x8192x3_S4x3x8192_0_2_1 (ix3 b cc m')))
          - Cert.Chamfer.two * ∑ cc : Fin 3, x (ix3 b n cc)
              * transpose S4x3x8192 [0, 2, 1] y transposes_S4x8192x3_S4x3x8192_0_2_1 (ix3 b cc m'))
      = Cert.Chamfer.nn x y (ix2 b n) := by
  unfold Cert.Chamfer.nn
  refine congrArg Finset.univ.inf (funext fun m' => ?_)
  have ht : ∀ cc : Fin 3, transpose S4x3x8192 [0, 2, 1] y transposes_S4x8192x3_S4x3x8192_0_2_1 (ix3 b cc m')
      = y (ix3 b m' cc) := fun cc => HostValue.transpose_apply y b cc m'
  simp only [ht]
  rfl

/-- The same with the roles of the two point sets exchanged: a distance row of the second call, which reads the second
    point set's rows against the transposed first one, is the minimum towards `x`. -/
theorem inf_sqdT_eq_nnT (x y : S4x8192x3.Idx → EReal) (b : Fin 4) (m : Fin 8192) :
    (Finset.univ.inf fun n' : Fin 8192 =>
        ((∑ cc : Fin 3, y (ix3 b m cc) * y (ix3 b m cc))
          + (∑ cc : Fin 3, transpose S4x3x8192 [0, 2, 1] x transposes_S4x8192x3_S4x3x8192_0_2_1 (ix3 b cc n')
              * transpose S4x3x8192 [0, 2, 1] x transposes_S4x8192x3_S4x3x8192_0_2_1 (ix3 b cc n')))
          - Cert.Chamfer.two * ∑ cc : Fin 3, y (ix3 b m cc)
              * transpose S4x3x8192 [0, 2, 1] x transposes_S4x8192x3_S4x3x8192_0_2_1 (ix3 b cc n'))
      = Cert.Chamfer.nnT x y (ix2 b m) := by
  rw [Cert.Chamfer.nnT_eq_nn_swap]
  exact inf_sqdT_eq_nn y x b m

end Cert.KernelIdeal.HostValue

end
-- ==== Proof.KernelChain.lean ====
import proofs.«140404_j28063316312805_1_alg».proof.Proof.FrRegions
import proofs.«140404_j28063316312805_1_alg».proof.Proof.FrArr0
import proofs.«140404_j28063316312805_1_alg».proof.Proof.FrArr1
import proofs.«140404_j28063316312805_1_alg».proof.Proof.HostValue

/-!
  The contents of the tiled program's buffers at the boundaries of its five segments, read at the extended reals
  as functions of the two argument arrays `x`, `y`:

  * the first call is entered with `x` and the transpose of `y`;
  * the second call is entered with `y` and the transpose of `x` (the first call returns its inputs as entered, and a
    host stretch leaves what it does not write);
  * the result is the shared last step of the two calls' output arrays.
-/

noncomputable section

namespace Cert.KernelIdeal.Chain

open Idealize.ShloMosaic Idealize.ShloMosaic.TcCoe Idealize.ShloMosaic.ValueIdx Idealize.SL.Sem
open Cert.KernelIdeal Cert.KernelIdeal.Gen Cert.KernelIdeal.Fr Cert.KernelIdeal.HostValue

variable (m : (ℓ : Loc nD τ sig) → Buf (Elt Ideal) ℓ) (c : Dev nD)

/-- The first call is entered with the first argument as launched. -/
theorem U1_arg0 : (U1 (F := Ideal) m c main_arg0 : S4x8192x3.Idx → EReal) = m ((c : Thread nD τ).loc main_arg0) :=
  after0_arg0 (W0 m c)

/-- … and with the transpose of the second argument. -/
theorem U1_v0 : (U1 (F := Ideal) m c main_v0 : S4x3x8192.Idx → EReal)
    = transpose S4x3x8192 [0, 2, 1] (m ((c : Thread nD τ).loc main_arg1)) transposes_S4x8192x3_S4x3x8192_0_2_1 :=
  after0_v0 (W0 m c)

/-- The first call leaves the first argument as entered. -/
theorem W2_arg0 : W2 (F := Ideal) m c (Proc.devRef .tc main_arg0) = m ((c : Thread nD τ).loc main_arg0) :=
  ((W2_arr m c 0).trans (((dat0 (U1 m) c).arrAt_in 0 rfl _).trans (A_eq0 (U1 m) c 0))).trans (after0_arg0 (W0 m c))

/-- The first call does not touch the second argument. -/
theorem W2_arg1 : W2 (F := Ideal) m c (Proc.devRef .tc main_arg1) = m ((c : Thread nD τ).loc main_arg1) :=
  (W2_of_ne m c main_arg1 (by decide)).trans (after0_arg1 (W0 m c))

/-- The second call is entered with the second argument as launched. -/
theorem U3_arg1 : (U3 (F := Ideal) m c main_arg1 : S4x8192x3.Idx → EReal) = m ((c : Thread nD τ).loc main_arg1) :=
  (after1_arg1 (W2 m c)).trans (W2_arg1 m c)

/-- … and with the transpose of the first argument. -/
theorem U3_v2 : (U3 (F := Ideal) m c main_v2 : S4x3x8192.Idx → EReal)
    = transpose S4x3x8192 [0, 2, 1] (m ((c : Thread nD τ).loc main_arg0)) transposes_S4x8192x3_S4x3x8192_0_2_1 :=
  (after1_v2 (W2 m c)).trans
    (congrArg (fun z => transpose S4x3x8192 [0, 2, 1] z transposes_S4x8192x3_S4x3x8192_0_2_1) (W2_arg0 m c))

/-- After the second call its output buffer holds its output array. -/
theorem W4_v3 : W4 (F := Ideal) m c (Proc.devRef .tc main_v3) = outArr1 (U3 m) c :=
  (W4_arr m c 2).trans (final1 (U3 m) c)

/-- After the second call the first call's output buffer still holds the first call's output array. -/
theorem W4_v1 : W4 (F := Ideal) m c (Proc.devRef .tc main_v1) = outArr0 (U1 m) c :=
  (W4_of_ne m c main_v1 (by decide)).trans
    ((after1_v1 (W2 m c)).trans ((W2_arr m c 2).trans (final0 (U1 m) c)))

/-- The result buffer at the return: the shared last step of the two calls' output arrays. -/
theorem W5_v8 : (W5 (F := Ideal) m c (Proc.devRef .tc main_v8) : S_.Idx → EReal)
    = Cert.Chamfer.tail reducesTo_S4x8192_S_d0_1 h_S_ (outArr0 (U1 m) c) (outArr1 (U3 m) c) := by
  refine (after2_v8 (W4 m c)).trans ?_
  rw [W4_v1 m c, W4_v3 m c]

end Cert.KernelIdeal.Chain

end
-- ==== Proof.KernelValue.lean ====
import proofs.«140404_j28063316312805_1_alg».proof.Proof.FrRegions
import proofs.«140404_j28063316312805_1_alg».proof.Proof.FrArr0
import proofs.«140404_j28063316312805_1_alg».proof.Proof.FrArr1
import proofs.«140404_j28063316312805_1_alg».proof.Proof.AccValue0
import proofs.«140404_j28063316312805_1_alg».proof.Proof.AccValue1
import proofs.«140404_j28063316312805_1_alg».proof.Proof.HostValue
import proofs.«140404_j28063316312805_1_alg».proof.Proof.KernelChain

/-!
  The idealized kernel's result as the specification.

  Call 0's output array holds, at (b, n), the running minimum after the last tile of row block `n / 512`, which is the
  infimum over all 8192 columns of the squared distance from point n of the first argument to the points of the second
  (whose transpose the call is fed): `nn x y`. Call 1 is the same with the arguments' roles swapped: `nn y x = nnT x y`.
  The nine host operations after the calls are the specification's `tail` of the two arrays.
-/

noncomputable section

namespace Cert.KernelIdeal.KernelValue

open Cert.KernelIdeal Cert.KernelIdeal.Gen Cert.KernelIdeal.Fr Idealize.ShloMosaic Idealize.ShloMosaic.TcCoe
open Idealize.ShloMosaic.ValueIdx Idealize.SL.Sem Cert.Chamfer

variable (m : (ℓ : Loc nD τ sig) → Buf (Elt Ideal) ℓ)

/-- Call 0's output array is the nearest-neighbour distance from each point of the first argument into the second. -/
theorem outArr0_eq (c : Dev nD) :
    outArr0 (F := Ideal) (U1 m) c = nn (m ((c : Thread nD τ).loc main_arg0)) (m ((c : Thread nD τ).loc main_arg1)) := by
  funext i
  obtain ⟨b, n, rfl⟩ : ∃ (b : Fin 4) (n : Fin 8192), i = ix2 b n := ⟨i 0, i 1, eq_ix2 i⟩
  have hn : n.val < 8192 := n.isLt
  have hN : cfg0.N = 128 := N_0
  have ht : 8 * (n.val / 512) + 7 < cfg0.N := by rw [hN]; omega
  have h7 : (⟨8 * (n.val / 512) + 7, ht⟩ : Fin cfg0.N).val % 8 = 7 := by show (8 * (n.val / 512) + 7) % 8 = 7; omega
  rw [outArr0_at (U1 m) c ⟨8 * (n.val / 512) + 7, ht⟩ h7 (ix2 b n) (ix2 b ⟨n.val % 512, Nat.mod_lt _ (by decide)⟩) rfl
    (by show n.val = ((8 * (n.val / 512) + 7) / 8) * 512 + n.val % 512; omega)]
  rw [AccValue.accAt0_last (U1 m) c ⟨8 * (n.val / 512) + 7, ht⟩ h7 b ⟨n.val % 512, Nat.mod_lt _ (by decide)⟩]
  have e : ∀ h, (⟨512 * ((8 * (n.val / 512) + 7) / 8) + n.val % 512, h⟩ : Fin 8192) = n := fun h => Fin.ext (by show 512 * ((8 * (n.val / 512) + 7) / 8) + n.val % 512 = n.val; omega)
  rw [Chain.U1_arg0, Chain.U1_v0]
  simp only [e]
  exact HostValue.inf_sqdT_eq_nn _ _ b n

/-- Call 1's output array is the same towards the first argument. -/
theorem outArr1_eq (c : Dev nD) :
    outArr1 (F := Ideal) (U3 m) c = nnT (m ((c : Thread nD τ).loc main_arg0)) (m ((c : Thread nD τ).loc main_arg1)) := by
  funext i
  obtain ⟨b, n, rfl⟩ : ∃ (b : Fin 4) (n : Fin 8192), i = ix2 b n := ⟨i 0, i 1, eq_ix2 i⟩
  have hn : n.val < 8192 := n.isLt
  have hN : cfg1.N = 128 := N_1
  have ht : 8 * (n.val / 512) + 7 < cfg1.N := by rw [hN]; omega
  have h7 : (⟨8 * (n.val / 512) + 7, ht⟩ : Fin cfg1.N).val % 8 = 7 := by show (8 * (n.val / 512) + 7) % 8 = 7; omega
  rw [outArr1_at (U3 m) c ⟨8 * (n.val / 512) + 7, ht⟩ h7 (ix2 b n) (ix2 b ⟨n.val % 512, Nat.mod_lt _ (by decide)⟩) rfl
    (by show n.val = ((8 * (n.val / 512) + 7) / 8) * 512 + n.val % 512; omega)]
  rw [AccValue.accAt1_last (U3 m) c ⟨8 * (n.val / 512) + 7, ht⟩ h7 b ⟨n.val % 512, Nat.mod_lt _ (by decide)⟩]
  have e : ∀ h, (⟨512 * ((8 * (n.val / 512) + 7) / 8) + n.val % 512, h⟩ : Fin 8192) = n := fun h => Fin.ext (by show 512 * ((8 * (n.val / 512) + 7) / 8) + n.val % 512 = n.val; omega)
  rw [Chain.U3_arg1, Chain.U3_v2]
  simp only [e]
  exact HostValue.inf_sqdT_eq_nnT _ _ b n

variable (ρ : Dev nD → PrngReg)

/-- THE RUN, READ: the result is the specification of the two arguments, which end unchanged. -/
theorem run : θ_run defs (onTc (τ := τ) (main (F := Ideal))) ⟨m, fun _ => 0, ρ⟩ (fun r => ∀ c : Dev nD,
      r.2.mem ((c.tc : Thread nD τ).loc main_v8)
        = tail reducesTo_S4x8192_S_d0_1 h_S_ (nn (m ((c.tc : Thread nD τ).loc main_arg0)) (m ((c.tc : Thread nD τ).loc main_arg1)))
            (nnT (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v8 (by decide))).trans ((Chain.W5_v8 m c).trans (by rw [outArr0_eq, outArr1_eq])),
      (h c _ (mem_uc main_arg0 (by decide))).trans (W5_main_arg0 m c),
      (h c _ (mem_uc main_arg1 (by decide))).trans (W5_main_arg1 m c)⟩) (run_main m ρ)

end Cert.KernelIdeal.KernelValue

end
-- ==== Proof.RefValue.lean ====
import proofs.«140404_j28063316312805_1_alg».proof.Proof.Gen.ReferenceIdeal.Run
import proofs.«140404_j28063316312805_1_alg».proof.Proof.Gen.ReferenceIdeal.Read
import proofs.«140404_j28063316312805_1_alg».proof.Proof.SpecLaws

/-!
  The reference program's result, read as the specification.

  The reference forms the whole `4 × 8192 × 8192` array of squared distances
  `(‖x[b,n]‖² + ‖y[b,m]‖²) − 2·⟨x[b,n], y[b,m]⟩` (two row sums of squares, broadcast along the other point
  axis, and a batched inner product), takes its minimum over the last axis and over the middle axis, and ends
  with the mean of each of the two minimum arrays, added. Read at the extended reals, element by element:

  * the distance array at `(b, n, m)` is `sqd x y b n m` — the sums start from the word of `0`, which adds nothing;
  * a minimum-reduction over one axis, started from the word of `+∞` (the top element), is the infimum over that
    axis's coordinates: over the last axis `nn x y`, over the middle axis `nnT x y`;
  * the remaining nine operations are literally `tail`.
-/

noncomputable section

namespace Cert.ReferenceIdeal.RefValue

open Cert.ReferenceIdeal Cert.ReferenceIdeal.Gen Idealize.ShloMosaic Idealize.ShloMosaic.ValueIdx Cert.Chamfer

/-- The distance array of the reference at `(b, n, m)` is the specification's squared distance. -/
theorem val_v12_apply (x y : (⟨S4x8192x3, .f32⟩ : BufTy).Contents (Elt Ideal)) (b : Fin 4) (n m : Fin 8192) :
    Read.val_main_v12 (F := Ideal) x y (ix3 b n m) = sqd x y b n m := by
  have e1 : ∀ k : Fin 3, Read.idx_main_v1 (Read.idx_main_v5 (Read.idx_main_v7 (ix3 b n m))) k = ix3 b n k :=
    fun k => funext fun a => by match a with | ⟨0, _⟩ => rfl | ⟨1, _⟩ => rfl | ⟨2, _⟩ => rfl
  have e2 : ∀ k : Fin 3, Read.idx_main_v3 (Read.idx_main_v6 (Read.idx_main_v8 (ix3 b n m))) k = ix3 b m k :=
    fun k => funext fun a => by match a with | ⟨0, _⟩ => rfl | ⟨1, _⟩ => rfl | ⟨2, _⟩ => rfl
  have e3 : ∀ k : Fin 3, Read.lidx_main_v4 (ix3 b n m) k = ix3 b n k :=
    fun k => funext fun a => by match a with | ⟨0, _⟩ => rfl | ⟨1, _⟩ => rfl | ⟨2, _⟩ => rfl
  have e4 : ∀ k : Fin 3, Read.ridx_main_v4 (ix3 b n m) k = ix3 b m k :=
    fun k => funext fun a => by match a with | ⟨0, _⟩ => rfl | ⟨1, _⟩ => rfl | ⟨2, _⟩ => rfl
  rw [Read.val_main_v12_apply, Read.val_main_v9_apply, Read.val_main_v11_apply, Read.val_main_v7_apply,
    Read.val_main_v8_apply, Read.val_main_v5_apply, Read.val_main_v6_apply, Read.val_main_v1_apply,
    Read.val_main_v3_apply, Read.val_main_v10_apply, Read.val_main_v4_apply]
  simp only [Read.val_main_cst_apply, Read.val_main_cst_0_apply, Read.val_main_cst_1_apply, Read.val_main_v0_apply,
    Read.val_main_v2_apply, Ideal.ofBits_def, Ideal.ofBits_zero_f32, zero_add, Ideal.addf_def, Ideal.subf_def,
    Ideal.mulf_def, e1, e2, e3, e4]
  rfl

/-- The minimum over the last axis, from `+∞`: the nearest-neighbour distance from each point of `x` into `y`. -/
theorem val_v13_eq (x y : (⟨S4x8192x3, .f32⟩ : BufTy).Contents (Elt Ideal)) :
    Read.val_main_v13 (F := Ideal) x y = nn x y := by
  funext i
  obtain ⟨b, n, rfl⟩ : ∃ (b : Fin 4) (n : Fin 8192), i = ix2 b n := ⟨i 0, i 1, eq_ix2 i⟩
  have h : S4x8192x8192.Reduces [2] S4x8192 := by decide
  unfold Read.val_main_v13
  rw [Host.reduce_eq_fold_single _ _ _ reducesTo_S4x8192x8192_S4x8192_d2 h h_S_, Read.val_main_cst_2_apply,
    Ideal.ofBits_def, ofBits_inf_f32]
  refine (fold_minimumf_eq_inf _ _).trans ?_
  refine congrArg Finset.univ.inf (funext fun m => ?_)
  show Read.val_main_v12 (F := Ideal) x y (h.lift (ix2 b n) m) = sqd x y b n m
  rw [show h.lift (ix2 b n) m = ix3 b n m from
    funext fun a => Fin.ext (by match a with | ⟨0, _⟩ => rfl | ⟨1, _⟩ => rfl | ⟨2, _⟩ => rfl)]
  exact val_v12_apply x y b n m

/-- The minimum over the middle axis, from `+∞`: for each point of `y`, the minimum over the points of `x`. -/
theorem val_v14_eq (x y : (⟨S4x8192x3, .f32⟩ : BufTy).Contents (Elt Ideal)) :
    Read.val_main_v14 (F := Ideal) x y = nnT x y := by
  funext i
  obtain ⟨b, m, rfl⟩ : ∃ (b : Fin 4) (m : Fin 8192), i = ix2 b m := ⟨i 0, i 1, eq_ix2 i⟩
  have h : S4x8192x8192.Reduces [1] S4x8192 := by decide
  unfold Read.val_main_v14
  rw [Host.reduce_eq_fold_single _ _ _ reducesTo_S4x8192x8192_S4x8192_d1 h h_S_, Read.val_main_cst_3_apply,
    Ideal.ofBits_def, ofBits_inf_f32]
  refine (fold_minimumf_eq_inf _ _).trans ?_
  refine congrArg Finset.univ.inf (funext fun n => ?_)
  show Read.val_main_v12 (F := Ideal) x y (h.lift (ix2 b m) n) = sqd x y b n m
  rw [show h.lift (ix2 b m) n = ix3 b n m from
    funext fun a => Fin.ext (by match a with | ⟨0, _⟩ => rfl | ⟨1, _⟩ => rfl | ⟨2, _⟩ => rfl)]
  exact val_v12_apply x y b n m

/-- The reference's result is the shared last step applied to the two nearest-neighbour distance arrays. -/
theorem ref_result (x y : (⟨S4x8192x3, .f32⟩ : BufTy).Contents (Elt Ideal)) :
    Read.val_main_v19 (F := Ideal) x y
      = tail reducesTo_S4x8192_S_d0_1 h_S_ (nn x y) (nnT x y) := by
  unfold Read.val_main_v19 Read.val_main_v16 Read.val_main_v18 Read.val_main_v15 Read.val_main_v17
  rw [val_v13_eq, val_v14_eq]
  rfl

end Cert.ReferenceIdeal.RefValue

end
-- ==== Proof.lean ====
/-
  A tiled nearest-neighbour (chamfer) distance against its whole-array form, at the extended reals.

  For two point sets x, y : f32[4, 8192, 3] both programs compute
      mean over (b, n) of min over m of d(b, n, m)  +  mean over (b, m) of min over n of d(b, n, m),
  where d(b, n, m) = (‖x[b,n]‖² + ‖y[b,m]‖²) − 2·⟨x[b,n], y[b,m]⟩.
  The kernel runs two pipelined calls, each over a 16 × 8 grid: a call keeps, in a scratch buffer carried from tile to
  tile, the running minimum over the column tiles seen so far of a row block's distances, and writes the row block out
  after its eighth tile; the second call swaps the roles of x and y. The reference forms the whole distance array and
  reduces it along either point axis. At the extended reals minimum is associative, commutative and idempotent and
  `min ⊤ a = a`, so the fold over eight tiles is the infimum over all columns; swapping the roles of x and y only
  commutes the two squared norms and the products inside the inner product. No finiteness is used.

  * Spec / SpecLaws: the distance, the two infima, the law joining the tiled fold to the infimum, the symmetry.
  * RefValue: the reference's result is the specification (over its generated run and read-at-an-index lemmas).
  * FrShared, FrRun*, FrBody*, FrRegions (and the same at the word-level program, BitsFr*): each call's body run case by
    case, the running minimum and the invariant point by point, the body obligation, @main as five segments, the run.
  * FrArr*, PayloadValue*, AccValue*, HostValue, KernelChain, KernelValue: the kernel's result is the specification.
-/
import proofs.«140404_j28063316312805_1_alg».proof.Defs
import proofs.«140404_j28063316312805_1_alg».proof.Proof.Gen.Kernel
import proofs.«140404_j28063316312805_1_alg».proof.Proof.Gen.KernelIdeal
import proofs.«140404_j28063316312805_1_alg».proof.Proof.Gen.ReferenceIdeal
import proofs.«140404_j28063316312805_1_alg».proof.Proof.Gen.Pre_finite_inputs
import proofs.«140404_j28063316312805_1_alg».proof.Proof.BitsFrRegions
import proofs.«140404_j28063316312805_1_alg».proof.Proof.FrRegions
import proofs.«140404_j28063316312805_1_alg».proof.Proof.KernelValue
import proofs.«140404_j28063316312805_1_alg».proof.Proof.RefValue

noncomputable section

namespace Cert.Proof

open Idealize.ShloMosaic Idealize.SL.Sem

/-- The word-level kernel runs to the end and leaves its arguments unchanged. -/
theorem frame_k : Cert.frame_Kernel := fun m ρ _ => Cert.Kernel.Fr.frame m ρ
/-- So does the idealized kernel, -/
theorem frame_ki : Cert.frame_KernelIdeal := fun m ρ _ => Cert.KernelIdeal.Fr.frame m ρ
/-- and the reference (its generated run with the result dropped). -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end at the specification of the (agreeing) arguments. -/
theorem algebraic : Cert.algebraic_KernelIdeal_ReferenceIdeal := by
  intro m ρ m' ρ' _ hagree
  refine ⟨fun c => Cert.Chamfer.tail Cert.KernelIdeal.Gen.reducesTo_S4x8192_S_d0_1 Cert.KernelIdeal.Gen.h_S_
      (Cert.Chamfer.nn (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
      (Cert.Chamfer.nnT (m ((c.tc : Thread Cert.KernelIdeal.nD Cert.KernelIdeal.τ).loc Cert.KernelIdeal.main_arg0)) (m ((c.tc : Thread Cert.KernelIdeal.nD Cert.KernelIdeal.τ).loc Cert.KernelIdeal.main_arg1))),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefValue.ref_result, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
